-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S512x1024 : Shape := ⟨2, ![512, 1024]⟩
abbrev S256x512 : Shape := ⟨2, ![256, 512]⟩
abbrev S128x256 : Shape := ⟨2, ![128, 256]⟩
abbrev S8x128 : Shape := ⟨2, ![8, 128]⟩
abbrev S512 : Shape := ⟨1, ![512]⟩
abbrev S256 : Shape := ⟨1, ![256]⟩
abbrev S128 : Shape := ⟨1, ![128]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S256x512 : S_.BroadcastsInDim S256x512 (![] : Fin 0 → Fin S256x512.rank)
  reducesTo_S256x512_S_d0_1 : S256x512.ReducesTo [0, 1] S_
  bcast_S_S128x256 : S_.BroadcastsInDim S128x256 (![] : Fin 0 → Fin S128x256.rank)
  reducesTo_S128x256_S_d0_1 : S128x256.ReducesTo [0, 1] S_
  bcast_S_S8x128 : S_.BroadcastsInDim S8x128 (![] : Fin 0 → Fin S8x128.rank)
  reducesTo_S8x128_S_d0_1 : S8x128.ReducesTo [0, 1] S_
  bcast_S_S512 : S_.BroadcastsInDim S512 (![] : Fin 0 → Fin S512.rank)
  reducesTo_S512_S_d0 : S512.ReducesTo [0] S_
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_

variable [Facts]

def fn_part5 {F : FTy → Type} [FloatOps F] (main_arg8 : FVec F S512 .f32) (main_arg12 : FVec F S256 .f32) (main_arg16 : FVec F S128 .f32) (main_v83 : IVec S_ 1) (main_v84 : FVec F S512 .f32) : IVec S_ 1 :=
  let main_v85 : IVec S512 1 := cmpf .oge main_arg8 main_v84
  let main_c_33 : IVec S_ 1 := constantI S_ 1 1#1
  let main_v86 : IVec S_ 1 := (fun x v => Host.reduce IntOp.andi x v reducesTo_S512_S_d0 h_S_) main_v85 main_c_33
  let main_v87 : IVec S_ 1 := andi main_v83 main_v86
  let main_cst_34 : FVec F S_ .f32 := constant S_ .f32 0x00000000#32
  let main_v88 : FVec F S256 .f32 := broadcastInDim S256 ![] bcast_S_S256 main_cst_34
  let main_v89 : IVec S256 1 := cmpf .oge main_arg12 main_v88
  let main_c_35 : IVec S_ 1 := constantI S_ 1 1#1
  let main_v90 : IVec S_ 1 := (fun x v => Host.reduce IntOp.andi x v reducesTo_S256_S_d0 h_S_) main_v89 main_c_35
  let main_v91 : IVec S_ 1 := andi main_v87 main_v90
  let main_cst_36 : FVec F S_ .f32 := constant S_ .f32 0x00000000#32
  let main_v92 : FVec F S128 .f32 := broadcastInDim S128 ![] bcast_S_S128 main_cst_36
  let main_v93 : IVec S128 1 := cmpf .oge main_arg16 main_v92
  let main_c_37 : IVec S_ 1 := constantI S_ 1 1#1
  let main_v94 : IVec S_ 1 := (fun x v => Host.reduce IntOp.andi x v reducesTo_S128_S_d0 h_S_) main_v93 main_c_37
  let main_v95 : IVec S_ 1 := andi main_v91 main_v94
  main_v95

def fn_part4 {F : FTy → Type} [FloatOps F] (main_arg8 : FVec F S512 .f32) (main_arg12 : FVec F S256 .f32) (main_arg14 : FVec F S128 .f32) (main_arg15 : FVec F S128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_cst_32 : FVec F S_ .f32 := constant S_ .f32 0x00000000#32
  let main_v84 : FVec F S512 .f32 := broadcastInDim S512 ![] bcast_S_S512 main_cst_32
  fn_part5 (F := F) main_arg8 main_arg12 main_arg16 main_v83 main_v84

def fn_part3 {F : FTy → Type} [FloatOps F] (main_arg8 : FVec F S512 .f32) (main_arg11 : FVec F S256 .f32) (main_arg12 : FVec F S256 .f32) (main_arg13 : FVec F S128 .f32) (main_arg14 : FVec F S128 .f32) (main_arg15 : FVec F S128 .f32) (main_arg16 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg8 main_arg12 main_arg14 main_arg15 main_arg16 main_v63 main_v67

def fn_part2 {F : FTy → Type} [FloatOps F] (main_arg7 : FVec F S512 .f32) (main_arg8 : FVec F S512 .f32) (main_arg9 : FVec F S256 .f32) (main_arg10 : FVec F S256 .f32) (main_arg11 : FVec F S256 .f32) (main_arg12 : FVec F S256 .f32) (main_arg13 : FVec F S128 .f32) (main_arg14 : FVec F S128 .f32) (main_arg15 : FVec F S128 .f32) (main_arg16 : FVec F S128 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg8 main_arg11 main_arg12 main_arg13 main_arg14 main_arg15 main_arg16 main_v48 main_v49 main_v50

def fn_part1 {F : FTy → Type} [FloatOps F] (main_arg4 : FVec F S8x128 .f32) (main_arg5 : FVec F S512 .f32) (main_arg6 : FVec F S512 .f32) (main_arg7 : FVec F S512 .f32) (main_arg8 : FVec F S512 .f32) (main_arg9 : FVec F S256 .f32) (main_arg10 : FVec F S256 .f32) (main_arg11 : FVec F S256 .f32) (main_arg12 : FVec F S256 .f32) (main_arg13 : FVec F S128 .f32) (main_arg14 : FVec F S128 .f32) (main_arg15 : FVec F S128 .f32) (main_arg16 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S8x128 .f32 := Host.absf main_arg4
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S65536x1024 .f32) (main_arg1 : FVec F S512x1024 .f32) (main_arg2 : FVec F S256x512 .f32) (main_arg3 : FVec F S128x256 .f32) (main_arg4 : FVec F S8x128 .f32) (main_arg5 : FVec F S512 .f32) (main_arg6 : FVec F S512 .f32) (main_arg7 : FVec F S512 .f32) (main_arg8 : FVec F S512 .f32) (main_arg9 : FVec F S256 .f32) (main_arg10 : FVec F S256 .f32) (main_arg11 : FVec F S256 .f32) (main_arg12 : FVec F S256 .f32) (main_arg13 : FVec F S128 .f32) (main_arg14 : FVec F S128 .f32) (main_arg15 : FVec F S128 .f32) (main_arg16 : FVec F S128 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S65536x1024 : Shape := ⟨2, ![65536, 1024]⟩
abbrev S512x1024 : Shape := ⟨2, ![512, 1024]⟩
abbrev S256x512 : Shape := ⟨2, ![256, 512]⟩
abbrev S128x256 : Shape := ⟨2, ![128, 256]⟩
abbrev S8x128 : Shape := ⟨2, ![8, 128]⟩
abbrev S512 : Shape := ⟨1, ![512]⟩
abbrev S256 : Shape := ⟨1, ![256]⟩
abbrev S128 : Shape := ⟨1, ![128]⟩
abbrev S_ : Shape := ⟨0, ![]⟩
abbrev S1024x512 : Shape := ⟨2, ![1024, 512]⟩
abbrev S512x256 : Shape := ⟨2, ![512, 256]⟩
abbrev S256x128 : Shape := ⟨2, ![256, 128]⟩
abbrev S128x8 : Shape := ⟨2, ![128, 8]⟩
abbrev S1x512 : Shape := ⟨2, ![1, 512]⟩
abbrev S1x256 : Shape := ⟨2, ![1, 256]⟩
abbrev S1x128 : Shape := ⟨2, ![1, 128]⟩
abbrev S1x8 : Shape := ⟨2, ![1, 8]⟩
abbrev S65536x8 : Shape := ⟨2, ![65536, 8]⟩
abbrev S2048x1024 : Shape := ⟨2, ![2048, 1024]⟩
abbrev S2048x8 : Shape := ⟨2, ![2048, 8]⟩
abbrev S2048x512 : Shape := ⟨2, ![2048, 512]⟩
abbrev S2048x256 : Shape := ⟨2, ![2048, 256]⟩
abbrev S2048x128 : Shape := ⟨2, ![2048, 128]⟩

abbrev nBuf : Space → Nat
  | .hbm => 115
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S512x1024, .f32⟩
  | .hbm, ⟨2, _⟩ => ⟨S256x512, .f32⟩
  | .hbm, ⟨3, _⟩ => ⟨S128x256, .f32⟩
  | .hbm, ⟨4, _⟩ => ⟨S8x128, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S512x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S512x1024, .f32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S256x512, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S256x512, .f32⟩
  | .hbm, ⟨40, _⟩ => ⟨S256x512, .i1⟩
  | .hbm, ⟨41, _⟩ => ⟨S_, .f32⟩
  | .hbm, ⟨42, _⟩ => ⟨S_, .f32⟩
  | .hbm, ⟨43, _⟩ => ⟨S256x512, .f32⟩
  | .hbm, ⟨44, _⟩ => ⟨S256x512, .f32⟩
  | .hbm, ⟨45, _⟩ => ⟨S256x512, .f32⟩
  | .hbm, ⟨46, _⟩ => ⟨S128x256, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S128x256, .f32⟩
  | .hbm, ⟨53, _⟩ => ⟨S128x256, .i1⟩
  | .hbm, ⟨54, _⟩ => ⟨S_, .f32⟩
  | .hbm, ⟨55, _⟩ => ⟨S_, .f32⟩
  | .hbm, ⟨56, _⟩ => ⟨S128x256, .f32⟩
  | .hbm, ⟨57, _⟩ => ⟨S128x256, .f32⟩
  | .hbm, ⟨58, _⟩ => ⟨S128x256, .f32⟩
  | .hbm, ⟨59, _⟩ => ⟨S8x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x128, .f32⟩
  | .hbm, ⟨66, _⟩ => ⟨S8x128, .i1⟩
  | .hbm, ⟨67, _⟩ => ⟨S_, .f32⟩
  | .hbm, ⟨68, _⟩ => ⟨S_, .f32⟩
  | .hbm, ⟨69, _⟩ => ⟨S8x128, .f32⟩
  | .hbm, ⟨70, _⟩ => ⟨S8x128, .f32⟩
  | .hbm, ⟨71, _⟩ => ⟨S8x128, .f32⟩
  | .hbm, ⟨72, _⟩ => ⟨S1024x512, .f32⟩
  | .hbm, ⟨73, _⟩ => ⟨S1024x512, .bf16⟩
  | .hbm, ⟨74, _⟩ => ⟨S512x256, .f32⟩
  | .hbm, ⟨75, _⟩ => ⟨S512x256, .bf16⟩
  | .hbm, ⟨76, _⟩ => ⟨S256x128, .f32⟩
  | .hbm, ⟨77, _⟩ => ⟨S256x128, .bf16⟩
  | .hbm, ⟨78, _⟩ => ⟨S128x8, .f32⟩
  | .hbm, ⟨79, _⟩ => ⟨S128x8, .bf16⟩
  | .hbm, ⟨80, _⟩ => ⟨S_, .f32⟩
  | .hbm, ⟨81, _⟩ => ⟨S512, .f32⟩
  | .hbm, ⟨82, _⟩ => ⟨S512, .f32⟩
  | .hbm, ⟨83, _⟩ => ⟨S512, .f32⟩
  | .hbm, ⟨84, _⟩ => ⟨S512, .f32⟩
  | .hbm, ⟨85, _⟩ => ⟨S512, .f32⟩
  | .hbm, ⟨86, _⟩ => ⟨S512, .f32⟩
  | .hbm, ⟨87, _⟩ => ⟨S512, .f32⟩
  | .hbm, ⟨88, _⟩ => ⟨S512, .f32⟩
  | .hbm, ⟨89, _⟩ => ⟨S1x512, .f32⟩
  | .hbm, ⟨90, _⟩ => ⟨S1x512, .f32⟩
  | .hbm, ⟨91, _⟩ => ⟨S_, .f32⟩
  | .hbm, ⟨92, _⟩ => ⟨S256, .f32⟩
  | .hbm, ⟨93, _⟩ => ⟨S256, .f32⟩
  | .hbm, ⟨94, _⟩ => ⟨S256, .f32⟩
  | .hbm, ⟨95, _⟩ => ⟨S256, .f32⟩
  | .hbm, ⟨96, _⟩ => ⟨S256, .f32⟩
  | .hbm, ⟨97, _⟩ => ⟨S256, .f32⟩
  | .hbm, ⟨98, _⟩ => ⟨S256, .f32⟩
  | .hbm, ⟨99, _⟩ => ⟨S256, .f32⟩
  | .hbm, ⟨100, _⟩ => ⟨S1x256, .f32⟩
  | .hbm, ⟨101, _⟩ => ⟨S1x256, .f32⟩
  | .hbm, ⟨102, _⟩ => ⟨S_, .f32⟩
  | .hbm, ⟨103, _⟩ => ⟨S128, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S128, .f32⟩
  | .hbm, ⟨108, _⟩ => ⟨S128, .f32⟩
  | .hbm, ⟨109, _⟩ => ⟨S128, .f32⟩
  | .hbm, ⟨110, _⟩ => ⟨S128, .f32⟩
  | .hbm, ⟨111, _⟩ => ⟨S1x128, .f32⟩
  | .hbm, ⟨112, _⟩ => ⟨S1x128, .f32⟩
  | .hbm, ⟨113, _⟩ => ⟨S1x8, .f32⟩
  | .hbm, ⟨114, _⟩ => ⟨S65536x8, .f32⟩
  | .local _ .vmem, ⟨0, _⟩ => ⟨S2048x1024, .f32⟩
  | .local _ .vmem, ⟨1, _⟩ => ⟨S2048x1024, .f32⟩
  | .local _ .vmem, ⟨2, _⟩ => ⟨S1024x512, .bf16⟩
  | .local _ .vmem, ⟨3, _⟩ => ⟨S512x256, .bf16⟩
  | .local _ .vmem, ⟨4, _⟩ => ⟨S256x128, .bf16⟩
  | .local _ .vmem, ⟨5, _⟩ => ⟨S128x8, .bf16⟩
  | .local _ .vmem, ⟨6, _⟩ => ⟨S1x512, .f32⟩
  | .local _ .vmem, ⟨7, _⟩ => ⟨S1x512, .f32⟩
  | .local _ .vmem, ⟨8, _⟩ => ⟨S1x256, .f32⟩
  | .local _ .vmem, ⟨9, _⟩ => ⟨S1x256, .f32⟩
  | .local _ .vmem, ⟨10, _⟩ => ⟨S1x128, .f32⟩
  | .local _ .vmem, ⟨11, _⟩ => ⟨S1x128, .f32⟩
  | .local _ .vmem, ⟨12, _⟩ => ⟨S1x8, .f32⟩
  | .local _ .vmem, ⟨13, _⟩ => ⟨S2048x8, .f32⟩
  | .local _ .vmem, ⟨14, _⟩ => ⟨S2048x8, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_c_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v6 : Ref sig .tc := ⟨.hbm, 32, rfl⟩
abbrev main_v7 : Ref sig .tc := ⟨.hbm, 33, rfl⟩
abbrev main_cst_2 : Ref sig .tc := ⟨.hbm, 34, rfl⟩
abbrev main_v8 : Ref sig .tc := ⟨.hbm, 35, rfl⟩
abbrev main_cst_3 : Ref sig .tc := ⟨.hbm, 36, rfl⟩
abbrev main_v9 : Ref sig .tc := ⟨.hbm, 37, rfl⟩
abbrev main_cst_4 : Ref sig .tc := ⟨.hbm, 38, rfl⟩
abbrev main_v10 : Ref sig .tc := ⟨.hbm, 39, rfl⟩
abbrev main_v11 : Ref sig .tc := ⟨.hbm, 40, rfl⟩
abbrev main_cst_5 : Ref sig .tc := ⟨.hbm, 41, rfl⟩
abbrev main_cst_6 : Ref sig .tc := ⟨.hbm, 42, rfl⟩
abbrev main_call2_v0 : Ref sig .tc := ⟨.hbm, 43, rfl⟩
abbrev main_call2_v1 : Ref sig .tc := ⟨.hbm, 44, rfl⟩
abbrev main_v12 : Ref sig .tc := ⟨.hbm, 45, rfl⟩
abbrev main_v13 : Ref sig .tc := ⟨.hbm, 46, rfl⟩
abbrev main_cst_7 : Ref sig .tc := ⟨.hbm, 47, rfl⟩
abbrev main_v14 : Ref sig .tc := ⟨.hbm, 48, rfl⟩
abbrev main_cst_8 : Ref sig .tc := ⟨.hbm, 49, rfl⟩
abbrev main_v15 : Ref sig .tc := ⟨.hbm, 50, rfl⟩
abbrev main_cst_9 : Ref sig .tc := ⟨.hbm, 51, rfl⟩
abbrev main_v16 : Ref sig .tc := ⟨.hbm, 52, rfl⟩
abbrev main_v17 : Ref sig .tc := ⟨.hbm, 53, rfl⟩
abbrev main_cst_10 : Ref sig .tc := ⟨.hbm, 54, rfl⟩
abbrev main_cst_11 : Ref sig .tc := ⟨.hbm, 55, rfl⟩
abbrev main_call3_v0 : Ref sig .tc := ⟨.hbm, 56, rfl⟩
abbrev main_call3_v1 : Ref sig .tc := ⟨.hbm, 57, rfl⟩
abbrev main_v18 : Ref sig .tc := ⟨.hbm, 58, rfl⟩
abbrev main_v19 : Ref sig .tc := ⟨.hbm, 59, rfl⟩
abbrev main_cst_12 : Ref sig .tc := ⟨.hbm, 60, rfl⟩
abbrev main_v20 : Ref sig .tc := ⟨.hbm, 61, rfl⟩
abbrev main_cst_13 : Ref sig .tc := ⟨.hbm, 62, rfl⟩
abbrev main_v21 : Ref sig .tc := ⟨.hbm, 63, rfl⟩
abbrev main_cst_14 : Ref sig .tc := ⟨.hbm, 64, rfl⟩
abbrev main_v22 : Ref sig .tc := ⟨.hbm, 65, rfl⟩
abbrev main_v23 : Ref sig .tc := ⟨.hbm, 66, rfl⟩
abbrev main_cst_15 : Ref sig .tc := ⟨.hbm, 67, rfl⟩
abbrev main_cst_16 : Ref sig .tc := ⟨.hbm, 68, rfl⟩
abbrev main_call4_v0 : Ref sig .tc := ⟨.hbm, 69, rfl⟩
abbrev main_call4_v1 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_cst_17 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_18 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_19 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2048x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  reducesTo_S512x1024_S_d0_1 : S512x1024.ReducesTo [0, 1] S_
  h_S_ : 0 < S_.numel
  bcast_S_S512x1024 : S_.BroadcastsInDim S512x1024 (![] : Fin 0 → Fin S512x1024.rank)
  reducesTo_S256x512_S_d0_1 : S256x512.ReducesTo [0, 1] S_
  bcast_S_S256x512 : S_.BroadcastsInDim S256x512 (![] : Fin 0 → Fin S256x512.rank)
  reducesTo_S128x256_S_d0_1 : S128x256.ReducesTo [0, 1] S_
  bcast_S_S128x256 : S_.BroadcastsInDim S128x256 (![] : Fin 0 → Fin S128x256.rank)
  reducesTo_S8x128_S_d0_1 : S8x128.ReducesTo [0, 1] S_
  bcast_S_S8x128 : S_.BroadcastsInDim S8x128 (![] : Fin 0 → Fin S8x128.rank)
  transposes_S512x1024_S1024x512_1_0 : S512x1024.Transposes [1, 0] S1024x512
  bitsLt_bf16_f32 : FTy.bits .bf16 < FTy.bits .f32
  transposes_S256x512_S512x256_1_0 : S256x512.Transposes [1, 0] S512x256
  transposes_S128x256_S256x128_1_0 : S128x256.Transposes [1, 0] S256x128
  transposes_S8x128_S128x8_1_0 : S8x128.Transposes [1, 0] S128x8
  bcast_S_S512 : S_.BroadcastsInDim S512 (![] : Fin 0 → Fin S512.rank)
  shapeCasts_S512_S1x512 : S512.ShapeCasts S1x512
  bcast_S_S256 : S_.BroadcastsInDim S256 (![] : Fin 0 → Fin S256.rank)
  shapeCasts_S256_S1x256 : S256.ShapeCasts S1x256
  bcast_S_S128 : S_.BroadcastsInDim S128 (![] : Fin 0 → Fin S128.rank)
  shapeCasts_S128_S1x128 : S128.ShapeCasts S1x128
  bcast_S_S1x8 : S_.BroadcastsInDim S1x8 (![] : Fin 0 → Fin S1x8.rank)
  inb_S2048x1024_S2048x1024_0_0 : ∀ a, (![0, 0] : Fin 2 → Nat) a + S2048x1024.size a ≤ S2048x1024.size a
  h_S2048x1024 : 0 < S2048x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2048x8 : S1x8.Broadcasts S2048x8
  inb_S2048x8_S2048x8_0_0 : ∀ a, (![0, 0] : Fin 2 → Nat) a + S2048x8.size a ≤ S2048x8.size a
  h_S2048x8 : 0 < S2048x8.numel
  dot_S2048x1024_S1024x512_S2048x512_1_0_0_1_n_n_wf : DotDims.WF S2048x1024 S1024x512 S2048x512 [1] [0] [0] [1] [] []
  dot_S2048x512_S512x256_S2048x256_1_0_0_1_n_n_wf : DotDims.WF S2048x512 S512x256 S2048x256 [1] [0] [0] [1] [] []
  dot_S2048x256_S256x128_S2048x128_1_0_0_1_n_n_wf : DotDims.WF S2048x256 S256x128 S2048x128 [1] [0] [0] [1] [] []
  dot_S2048x128_S128x8_S2048x8_1_0_0_1_n_n_wf : DotDims.WF S2048x128 S128x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x8.size a ≤ S128x8.size a
  hwx0_4 : ∀ i : grid0.Coords, EltTy.bits .bf16 = 32 ∨ (Rect.block (s := S128x8) S128x8.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x8.size a ≤ S1x8.size a
  hwx0_11 : ∀ i : grid0.Coords, EltTy.bits .f32 = 32 ∨ (Rect.block (s := S1x8) S1x8.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x8.size a ≤ S65536x8.size a
  hwx0_12 : ∀ i : grid0.Coords, EltTy.bits .f32 = 32 ∨ (Rect.block (s := S65536x8) S2048x8.size (cc0_transform_12 i) (hinb0_12 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x8_S2048x8_1_0_0_1_n_n : DotDims S2048x128 S128x8 S2048x8 where
  lhsContracting := [1]
  rhsContracting := [0]
  lhsNonContracting := [0]
  rhsNonContracting := [1]
  lhsBatch := []
  rhsBatch := []
  wf := dot_S2048x128_S128x8_S2048x8_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S128x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v51) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v52) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v61) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v62) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v63) S1x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v64) S2048x8.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S512x1024 : Shape := ⟨2, ![512, 1024]⟩
abbrev S256x512 : Shape := ⟨2, ![256, 512]⟩
abbrev S128x256 : Shape := ⟨2, ![128, 256]⟩
abbrev S8x128 : Shape := ⟨2, ![8, 128]⟩
abbrev S512 : Shape := ⟨1, ![512]⟩
abbrev S256 : Shape := ⟨1, ![256]⟩
abbrev S128 : Shape := ⟨1, ![128]⟩
abbrev S_ : Shape := ⟨0, ![]⟩
abbrev S1024x512 : Shape := ⟨2, ![1024, 512]⟩
abbrev S65536x512 : Shape := ⟨2, ![65536, 512]⟩
abbrev S1x512 : Shape := ⟨2, ![1, 512]⟩
abbrev S512x256 : Shape := ⟨2, ![512, 256]⟩
abbrev S65536x256 : Shape := ⟨2, ![65536, 256]⟩
abbrev S1x256 : Shape := ⟨2, ![1, 256]⟩
abbrev S256x128 : Shape := ⟨2, ![256, 128]⟩
abbrev S65536x128 : Shape := ⟨2, ![65536, 128]⟩
abbrev S1x128 : Shape := ⟨2, ![1, 128]⟩
abbrev S128x8 : Shape := ⟨2, ![128, 8]⟩
abbrev S65536x8 : Shape := ⟨2, ![65536, 8]⟩

abbrev nBuf : Space → Nat
  | .hbm => 154
  | .vmem => 0
  | .smem => 0
  | _ => 0

abbrev hbmTy0_0 (i : Nat) : BufTy := match i % 128 with
  | 0 => ⟨S65536x1024, .f32⟩
  | 1 => ⟨S512x1024, .f32⟩
  | 2 => ⟨S256x512, .f32⟩
  | 3 => ⟨S128x256, .f32⟩
  | 4 => ⟨S8x128, .f32⟩
  | 5 => ⟨S512, .f32⟩
  | 6 => ⟨S512, .f32⟩
  | 7 => ⟨S512, .f32⟩
  | 8 => ⟨S512, .f32⟩
  | 9 => ⟨S256, .f32⟩
  | 10 => ⟨S256, .f32⟩
  | 11 => ⟨S256, .f32⟩
  | 12 => ⟨S256, .f32⟩
  | 13 => ⟨S128, .f32⟩
  | 14 => ⟨S128, .f32⟩
  | 15 => ⟨S128, .f32⟩
  | 16 => ⟨S128, .f32⟩
  | 17 => ⟨S512x1024, .f32⟩
  | 18 => ⟨S_, .f32⟩
  | 19 => ⟨S_, .f32⟩
  | 20 => ⟨S_, .f32⟩
  | 21 => ⟨S_, .f32⟩
  | 22 => ⟨S512x1024, .f32⟩
  | 23 => ⟨S512x1024, .f32⟩
  | 24 => ⟨S512x1024, .f32⟩
  | 25 => ⟨S_, .i32⟩
  | 26 => ⟨S_, .i32⟩
  | 27 => ⟨S_, .f32⟩
  | 28 => ⟨S512x1024, .f32⟩
  | 29 => ⟨S512x1024, .f32⟩
  | 30 => ⟨S_, .f32⟩
  | 31 => ⟨S512x1024, .f32⟩
  | 32 => ⟨S512x1024, .f32⟩
  | 33 => ⟨S512x1024, .f32⟩
  | 34 => ⟨S512x1024, .f32⟩
  | 35 => ⟨S1024x512, .f32⟩
  | 36 => ⟨S65536x512, .f32⟩
  | 37 => ⟨S1x512, .f32⟩
  | 38 => ⟨S65536x512, .f32⟩
  | 39 => ⟨S65536x512, .f32⟩
  | 40 => ⟨S_, .f32⟩
  | 41 => ⟨S512, .f32⟩
  | 42 => ⟨S512, .f32⟩
  | 43 => ⟨S512, .f32⟩
  | 44 => ⟨S1x512, .f32⟩
  | 45 => ⟨S65536x512, .f32⟩
  | 46 => ⟨S65536x512, .f32⟩
  | 47 => ⟨S1x512, .f32⟩
  | 48 => ⟨S65536x512, .f32⟩
  | 49 => ⟨S65536x512, .f32⟩
  | 50 => ⟨S1x512, .f32⟩
  | 51 => ⟨S65536x512, .f32⟩
  | 52 => ⟨S65536x512, .f32⟩
  | 53 => ⟨S_, .f32⟩
  | 54 => ⟨S65536x512, .f32⟩
  | 55 => ⟨S65536x512, .i1⟩
  | 56 => ⟨S_, .f32⟩
  | 57 => ⟨S_, .f32⟩
  | 58 => ⟨S65536x512, .f32⟩
  | 59 => ⟨S65536x512, .f32⟩
  | 60 => ⟨S65536x512, .f32⟩
  | 61 => ⟨S65536x512, .f32⟩
  | 62 => ⟨S256x512, .f32⟩
  | 63 => ⟨S_, .f32⟩
  | 64 => ⟨S_, .f32⟩
  | 65 => ⟨S_, .f32⟩
  | 66 => ⟨S_, .f32⟩
  | 67 => ⟨S_, .f32⟩
  | 68 => ⟨S256x512, .f32⟩
  | 69 => ⟨S256x512, .i1⟩
  | 70 => ⟨S_, .f32⟩
  | 71 => ⟨S256x512, .f32⟩
  | 72 => ⟨S256x512, .f32⟩
  | 73 => ⟨S256x512, .f32⟩
  | 74 => ⟨S512x256, .f32⟩
  | 75 => ⟨S65536x256, .f32⟩
  | 76 => ⟨S1x256, .f32⟩
  | 77 => ⟨S65536x256, .f32⟩
  | 78 => ⟨S65536x256, .f32⟩
  | 79 => ⟨S_, .f32⟩
  | 80 => ⟨S256, .f32⟩
  | 81 => ⟨S256, .f32⟩
  | 82 => ⟨S256, .f32⟩
  | 83 => ⟨S1x256, .f32⟩
  | 84 => ⟨S65536x256, .f32⟩
  | 85 => ⟨S65536x256, .f32⟩
  | 86 => ⟨S1x256, .f32⟩
  | 87 => ⟨S65536x256, .f32⟩
  | 88 => ⟨S65536x256, .f32⟩
  | 89 => ⟨S1x256, .f32⟩
  | 90 => ⟨S65536x256, .f32⟩
  | 91 => ⟨S65536x256, .f32⟩
  | 92 => ⟨S_, .f32⟩
  | 93 => ⟨S65536x256, .f32⟩
  | 94 => ⟨S65536x256, .i1⟩
  | 95 => ⟨S_, .f32⟩
  | 96 => ⟨S_, .f32⟩
  | 97 => ⟨S65536x256, .f32⟩
  | 98 => ⟨S65536x256, .f32⟩
  | 99 => ⟨S65536x256, .f32⟩
  | 100 => ⟨S65536x256, .f32⟩
  | 101 => ⟨S128x256, .f32⟩
  | 102 => ⟨S_, .f32⟩
  | 103 => ⟨S_, .f32⟩
  | 104 => ⟨S_, .f32⟩
  | 105 => ⟨S_, .f32⟩
  | 106 => ⟨S_, .f32⟩
  | 107 => ⟨S128x256, .f32⟩
  | 108 => ⟨S128x256, .i1⟩
  | 109 => ⟨S_, .f32⟩
  | 110 => ⟨S128x256, .f32⟩
  | 111 => ⟨S128x256, .f32⟩
  | 112 => ⟨S128x256, .f32⟩
  | 113 => ⟨S256x128, .f32⟩
  | 114 => ⟨S65536x128, .f32⟩
  | 115 => ⟨S1x128, .f32⟩
  | 116 => ⟨S65536x128, .f32⟩
  | 117 => ⟨S65536x128, .f32⟩
  | 118 => ⟨S_, .f32⟩
  | 119 => ⟨S128, .f32⟩
  | 120 => ⟨S128, .f32⟩
  | 121 => ⟨S128, .f32⟩
  | 122 => ⟨S1x128, .f32⟩
  | 123 => ⟨S65536x128, .f32⟩
  | 124 => ⟨S65536x128, .f32⟩
  | 125 => ⟨S1x128, .f32⟩
  | 126 => ⟨S65536x128, .f32⟩
  | 127 => ⟨S65536x128, .f32⟩
  | _ => ⟨S65536x1024, .f32⟩

abbrev hbmTy0_1 (i : Nat) : BufTy := match i % 128 with
  | 0 => ⟨S1x128, .f32⟩
  | 1 => ⟨S65536x128, .f32⟩
  | 2 => ⟨S65536x128, .f32⟩
  | 3 => ⟨S_, .f32⟩
  | 4 => ⟨S65536x128, .f32⟩
  | 5 => ⟨S65536x128, .i1⟩
  | 6 => ⟨S_, .f32⟩
  | 7 => ⟨S_, .f32⟩
  | 8 => ⟨S65536x128, .f32⟩
  | 9 => ⟨S65536x128, .f32⟩
  | 10 => ⟨S65536x128, .f32⟩
  | 11 => ⟨S65536x128, .f32⟩
  | 12 => ⟨S8x128, .f32⟩
  | 13 => ⟨S_, .f32⟩
  | 14 => ⟨S_, .f32⟩
  | 15 => ⟨S_, .f32⟩
  | 16 => ⟨S_, .f32⟩
  | 17 => ⟨S_, .f32⟩
  | 18 => ⟨S8x128, .f32⟩
  | 19 => ⟨S8x128, .i1⟩
  | 20 => ⟨S_, .f32⟩
  | 21 => ⟨S8x128, .f32⟩
  | 22 => ⟨S8x128, .f32⟩
  | 23 => ⟨S8x128, .f32⟩
  | 24 => ⟨S128x8, .f32⟩
  | 25 => ⟨S65536x8, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_c_1 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_cst_4 : Ref sig .tc := ⟨.hbm, 56, rfl⟩
abbrev main_cst_5 : Ref sig .tc := ⟨.hbm, 57, rfl⟩
abbrev main_call2_v0 : Ref sig .tc := ⟨.hbm, 58, rfl⟩
abbrev main_call2_v1 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_6 : Ref sig .tc := ⟨.hbm, 63, rfl⟩
abbrev main_v31 : Ref sig .tc := ⟨.hbm, 64, rfl⟩
abbrev main_cst_7 : Ref sig .tc := ⟨.hbm, 65, rfl⟩
abbrev main_v32 : Ref sig .tc := ⟨.hbm, 66, rfl⟩
abbrev main_cst_8 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_call3_v0 : Ref sig .tc := ⟨.hbm, 71, rfl⟩
abbrev main_call3_v1 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_9 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_10 : Ref sig .tc := ⟨.hbm, 92, rfl⟩
abbrev main_v54 : Ref sig .tc := ⟨.hbm, 93, rfl⟩
abbrev main_v55 : Ref sig .tc := ⟨.hbm, 94, rfl⟩
abbrev main_cst_11 : Ref sig .tc := ⟨.hbm, 95, rfl⟩
abbrev main_cst_12 : Ref sig .tc := ⟨.hbm, 96, rfl⟩
abbrev main_call4_v0 : Ref sig .tc := ⟨.hbm, 97, rfl⟩
abbrev main_call4_v1 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_13 : Ref sig .tc := ⟨.hbm, 102, rfl⟩
abbrev main_v59 : Ref sig .tc := ⟨.hbm, 103, rfl⟩
abbrev main_cst_14 : Ref sig .tc := ⟨.hbm, 104, rfl⟩
abbrev main_v60 : Ref sig .tc := ⟨.hbm, 105, rfl⟩
abbrev main_cst_15 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_call5_v0 : Ref sig .tc := ⟨.hbm, 110, rfl⟩
abbrev main_call5_v1 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_16 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_17 : Ref sig .tc := ⟨.hbm, 131, rfl⟩
abbrev main_v82 : Ref sig .tc := ⟨.hbm, 132, rfl⟩
abbrev main_v83 : Ref sig .tc := ⟨.hbm, 133, rfl⟩
abbrev main_cst_18 : Ref sig .tc := ⟨.hbm, 134, rfl⟩
abbrev main_cst_19 : Ref sig .tc := ⟨.hbm, 135, rfl⟩
abbrev main_call6_v0 : Ref sig .tc := ⟨.hbm, 136, rfl⟩
abbrev main_call6_v1 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_20 : Ref sig .tc := ⟨.hbm, 141, rfl⟩
abbrev main_v87 : Ref sig .tc := ⟨.hbm, 142, rfl⟩
abbrev main_cst_21 : Ref sig .tc := ⟨.hbm, 143, rfl⟩
abbrev main_v88 : Ref sig .tc := ⟨.hbm, 144, rfl⟩
abbrev main_cst_22 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_call7_v0 : Ref sig .tc := ⟨.hbm, 149, rfl⟩
abbrev main_call7_v1 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩

abbrev nD : Nat := 1
abbrev τ : Topo := Topo.v7x

variable {F : FTy → Type} [FloatOps F]

class Facts₀ : Prop where
  reducesTo_S512x1024_S_d0_1 : S512x1024.ReducesTo [0, 1] S_
  h_S_ : 0 < S_.numel
  bcast_S_S512x1024 : S_.BroadcastsInDim S512x1024 (![] : Fin 0 → Fin S512x1024.rank)
  transposes_S512x1024_S1024x512_1_0 : S512x1024.Transposes [1, 0] S1024x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S512 : S_.BroadcastsInDim S512 (![] : Fin 0 → Fin S512.rank)
  bcast_S_S65536x512 : S_.BroadcastsInDim S65536x512 (![] : Fin 0 → Fin S65536x512.rank)
  reducesTo_S256x512_S_d0_1 : S256x512.ReducesTo [0, 1] S_
  bcast_S_S256x512 : S_.BroadcastsInDim S256x512 (![] : Fin 0 → Fin S256x512.rank)
  transposes_S256x512_S512x256_1_0 : S256x512.Transposes [1, 0] S512x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S256 : S_.BroadcastsInDim S256 (![] : Fin 0 → Fin S256.rank)
  bcast_S_S65536x256 : S_.BroadcastsInDim S65536x256 (![] : Fin 0 → Fin S65536x256.rank)
  reducesTo_S128x256_S_d0_1 : S128x256.ReducesTo [0, 1] S_
  bcast_S_S128x256 : S_.BroadcastsInDim S128x256 (![] : Fin 0 → Fin S128x256.rank)
  transposes_S128x256_S256x128_1_0 : S128x256.Transposes [1, 0] S256x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S128 : S_.BroadcastsInDim S128 (![] : Fin 0 → Fin S128.rank)
  bcast_S_S65536x128 : S_.BroadcastsInDim S65536x128 (![] : Fin 0 → Fin S65536x128.rank)
  reducesTo_S8x128_S_d0_1 : S8x128.ReducesTo [0, 1] S_
  bcast_S_S8x128 : S_.BroadcastsInDim S8x128 (![] : Fin 0 → Fin S8x128.rank)
  transposes_S8x128_S128x8_1_0 : S8x128.Transposes [1, 0] S128x8
  dot_S65536x1024_S1024x512_S65536x512_1_0_0_1_n_n_wf : DotDims.WF S65536x1024 S1024x512 S65536x512 [1] [0] [0] [1] [] []
  dot_S65536x512_S512x256_S65536x256_1_0_0_1_n_n_wf : DotDims.WF S65536x512 S512x256 S65536x256 [1] [0] [0] [1] [] []
  dot_S65536x256_S256x128_S65536x128_1_0_0_1_n_n_wf : DotDims.WF S65536x256 S256x128 S65536x128 [1] [0] [0] [1] [] []
  dot_S65536x128_S128x8_S65536x8_1_0_0_1_n_n_wf : DotDims.WF S65536x128 S128x8 S65536x8 [1] [0] [0] [1] [] []

variable [Facts₀]

def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x128_S128x8_S65536x8_1_0_0_1_n_n : DotDims S65536x128 S128x8 S65536x8 where
  lhsContracting := [1]
  rhsContracting := [0]
  lhsNonContracting := [0]
  rhsNonContracting := [1]
  lhsBatch := []
  rhsBatch := []
  wf := dot_S65536x128_S128x8_S65536x8_1_0_0_1_n_n_wf

class Facts : Prop extends Facts₀ where

variable [Facts]
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.SignNet.lean ====
/-
  A network of sign activations, one input row at a time, in two arrangements.

  A layer takes a row a (K real entries) to B signs. In the FOLDED arrangement the weights are the bare integer codes
  (or bare signs) w, and the weight scale s rides in the affine map that follows the product:
      sgn( (Σ_k a_k · w_kj) · ((γ_j · ρ_j) · s) + (β_j − μ_j · (γ_j · ρ_j)) ).
  In the PLAIN arrangement the weights are scaled first and the normalisation is spelt out:
      sgn( ((Σ_k a_k · (w_kj · s)) − μ_j) · ρ_j · γ_j + β_j ).
  On real entries both pre-activations are the affine function y ↦ y·s·ρ·γ + β − μ·ρ·γ of y = Σ_k a_k·w_kj, so the
  two layers give the same signs. The extended reals are not a ring (⊤ + ⊥ = ⊥, 0 · ⊤ = 0): pulling the scale out of
  the sum and distributing over the difference need every entry to be a real number, which is where the hypotheses
  of the lemmas below come from. A sign is ±1, a real, so a layer's output feeds the next layer's hypothesis.

  The last layer has no normalisation: (Σ_k a_k · w_ke) · s against Σ_k a_k · (w_ke · s).
-/
import Idealize.ShloMosaic.PureOps.Ideal
import proofs.«134476_j27230092656811_2_alg».proof.Proof.LibRealEntries

noncomputable section

namespace Cert.SignNet

open Finset Idealize.ShloMosaic Cert.LibRealEntries

/-- A float word whose exponent field is not all ones denotes a real number. -/
theorem isReal_ieee (e m : Nat) {w : Nat} (b : BitVec w) (h : (b.extractLsb' m e).toNat ≠ 2 ^ e - 1) :
    IsReal (Ideal.ieee e m b) := by
  unfold Ideal.ieee
  simp only [if_neg h]
  split <;> exact ⟨_, rfl⟩

/-- The sign activation: 1 where the argument is at least 0, else −1 (the words of 0.0, 1.0 and −1.0). -/
def sgn (h : EReal) : EReal :=
  Scalar.select (FloatOps.cmpf (F := Ideal) (φ := .f32) .oge h (Ideal.ofBits .f32 0x00000000#32))
    (Ideal.ofBits .f32 0x3F800000#32) (Ideal.ofBits .f32 0xBF800000#32)

/-- A sign is a real number. -/
theorem isReal_sgn (h : EReal) : IsReal (sgn h) := by
  unfold sgn Scalar.select
  split
  · exact isReal_ieee 8 23 (0x3F800000#32) (by decide)
  · exact isReal_ieee 8 23 (0xBF800000#32) (by decide)

/-- The coercion of the reals commutes with finite sums. -/
theorem coe_sum {ι : Type*} (S : Finset ι) (f : ι → ℝ) : (∑ k ∈ S, ((f k : ℝ) : EReal)) = ((∑ k ∈ S, f k : ℝ) : EReal) := by
  classical
  refine Finset.induction_on S (by simp) fun a S ha ih => ?_
  rw [Finset.sum_insert ha, Finset.sum_insert ha, ih, EReal.coe_add]

/-- A real scale comes out of a sum of products of reals. -/
theorem sum_mul_scale {ι : Type*} [Fintype ι] (a w : ι → EReal) (s : EReal) (ha : ∀ k, IsReal (a k)) (hw : ∀ k, IsReal (w k))
    (hs : IsReal s) : ∑ k, a k * (w k * s) = (∑ k, a k * w k) * s := by
  choose a' ha' using ha
  choose w' hw' using hw
  obtain ⟨s', rfl⟩ := hs
  simp only [ha', hw', ← EReal.coe_mul, coe_sum]
  congr 1
  rw [Finset.sum_mul]
  exact Finset.sum_congr rfl fun k _ => by ring

/-- The folded and the plain pre-activation of one unit agree on real entries. -/
theorem folded_pre_eq {ι : Type*} [Fintype ι] (a w : ι → EReal) (s γ ρ β μ : EReal) (ha : ∀ k, IsReal (a k)) (hw : ∀ k, IsReal (w k))
    (hs : IsReal s) (hγ : IsReal γ) (hρ : IsReal ρ) (hβ : IsReal β) (hμ : IsReal μ) :
    (∑ k, a k * w k) * ((γ * ρ) * s) + (β - μ * (γ * ρ)) = ((∑ k, a k * (w k * s)) - μ) * ρ * γ + β := by
  rw [sum_mul_scale a w s ha hw hs]
  obtain ⟨y, hy⟩ : IsReal (∑ k, a k * w k) := IsReal.sum _ _ fun k _ => (ha k).mul (hw k)
  rw [hy]
  obtain ⟨s, rfl⟩ := hs; obtain ⟨γ, rfl⟩ := hγ; obtain ⟨ρ, rfl⟩ := hρ; obtain ⟨β, rfl⟩ := hβ; obtain ⟨μ, rfl⟩ := hμ
  simp only [← EReal.coe_mul, ← EReal.coe_sub, ← EReal.coe_add]
  congr 1
  ring

/-- One folded layer: codes w, folded scale S and shift T per output unit. -/
def foldedLayer {K B : ℕ} (a : Fin K → EReal) (w : Fin K → Fin B → EReal) (S T : Fin B → EReal) (j : Fin B) : EReal :=
  sgn ((∑ k, a k * w k j) * S j + T j)

/-- One plain layer: scaled weights q, then (y − μ)·ρ·γ + β per output unit. -/
def plainLayer {K B : ℕ} (a : Fin K → EReal) (q : Fin K → Fin B → EReal) (μ ρ γ β : Fin B → EReal) (j : Fin B) : EReal :=
  sgn (((∑ k, a k * q k j) - μ j) * ρ j * γ j + β j)

theorem isReal_foldedLayer {K B : ℕ} (a : Fin K → EReal) (w : Fin K → Fin B → EReal) (S T : Fin B → EReal) (j : Fin B) :
    IsReal (foldedLayer a w S T j) := isReal_sgn _

/-- A folded layer whose scale and shift are the folding of (s, γ, ρ, β, μ) is the plain layer with weights w·s. -/
theorem foldedLayer_eq_plainLayer {K B : ℕ} (a : Fin K → EReal) (w : Fin K → Fin B → EReal) (s : EReal) (μ ρ γ β : Fin B → EReal)
    (ha : ∀ k, IsReal (a k)) (hw : ∀ k j, IsReal (w k j)) (hs : IsReal s) (hμ : ∀ j, IsReal (μ j)) (hρ : ∀ j, IsReal (ρ j))
    (hγ : ∀ j, IsReal (γ j)) (hβ : ∀ j, IsReal (β j)) :
    foldedLayer a w (fun j => (γ j * ρ j) * s) (fun j => β j - μ j * (γ j * ρ j))
      = plainLayer a (fun k j => w k j * s) μ ρ γ β := by
  funext j
  unfold foldedLayer plainLayer
  rw [folded_pre_eq a (fun k => w k j) s (γ j) (ρ j) (β j) (μ j) ha (fun k => hw k j) hs (hγ j) (hρ j) (hβ j) (hμ j)]

/-- The last layer, folded: the bare product, then the output scale. -/
def foldedLast {K B : ℕ} (a : Fin K → EReal) (w : Fin K → Fin B → EReal) (s : Fin B → EReal) (e : Fin B) : EReal :=
  (∑ k, a k * w k e) * s e

/-- The last layer, plain: the product with scaled weights. -/
def plainLast {K B : ℕ} (a : Fin K → EReal) (q : Fin K → Fin B → EReal) (e : Fin B) : EReal :=
  ∑ k, a k * q k e

theorem foldedLast_eq_plainLast {K B : ℕ} (a : Fin K → EReal) (w : Fin K → Fin B → EReal) (s : EReal)
    (ha : ∀ k, IsReal (a k)) (hw : ∀ k j, IsReal (w k j)) (hs : IsReal s) :
    foldedLast a w (fun _ => s) = plainLast a (fun k j => w k j * s) := by
  funext e
  unfold foldedLast plainLast
  rw [sum_mul_scale a (fun k => w k e) s ha (fun k => hw k e) hs]

end Cert.SignNet

end
-- ==== Proof.TileLayers.lean ====
/-
  One layer of the sign network on a tile of rows, read at an index.

  On a tile of A rows a layer is: the product of the tile [A, K] with the weights [K, B] (into a zero accumulator),
  times a scale row [1, B] spread over the A rows, plus a shift row [1, B] spread likewise, then the sign of the
  result against 0. Every row of the tile goes through the same map and no row sees another: at (p, e) the value is
      sgn( (Σ_k L(p, k) · W(k, e)) · S(0, e) + T(0, e) ),
  the folded layer of the row L(p, ·). The last layer is the product times a scale row, with no sign.
  Stated for any A, K, B, so that a tile of 2048 rows and the whole array of 65536 rows are read by one lemma.
-/
import Idealize.ShloMosaic.Lib.ValueIdx
import Idealize.ShloMosaic.Lib.Pipeline.Value
import Idealize.ShloMosaic.PureOps.Ideal.Laws
import proofs.«134476_j27230092656811_2_alg».proof.Proof.LibPlainMatmul
import proofs.«134476_j27230092656811_2_alg».proof.Proof.LibRowBroadcast
import proofs.«134476_j27230092656811_2_alg».proof.Proof.SignNet

noncomputable section

namespace Cert.TileLayers

open Idealize.ShloMosaic Idealize.ShloMosaic.ValueIdx Cert.SignNet

/-- A layer on a tile: product, scale row, shift row, sign. -/
def tileLayer (A K B : ℕ) {φ ψ : FTy} (lhs : FVec Ideal ⟨2, ![A, K]⟩ φ) (w : FVec Ideal ⟨2, ![K, B]⟩ ψ)
    (s t : FVec Ideal ⟨2, ![1, B]⟩ .f32) (hb : (⟨2, ![1, B]⟩ : Shape).Broadcasts ⟨2, ![A, B]⟩) : FVec Ideal ⟨2, ![A, B]⟩ .f32 :=
  select (cmpf .oge
      (addf (mulf (matmul (DotDims.plain A K B) none lhs w (constant ⟨2, ![A, B]⟩ .f32 0x00000000#32)) (broadcastTo ⟨2, ![A, B]⟩ s hb))
        (broadcastTo ⟨2, ![A, B]⟩ t hb))
      (broadcast ⟨2, ![A, B]⟩ (Scalar.ofBits .f32 0x00000000#32)))
    (broadcast ⟨2, ![A, B]⟩ (Scalar.ofBits .f32 0x3F800000#32)) (broadcast ⟨2, ![A, B]⟩ (Scalar.ofBits .f32 0xBF800000#32))

/-- At (p, e) a tile layer is the folded layer of row p. -/
theorem tileLayer_apply (A K B : ℕ) {φ ψ : FTy} (lhs : FVec Ideal ⟨2, ![A, K]⟩ φ) (w : FVec Ideal ⟨2, ![K, B]⟩ ψ)
    (s t : FVec Ideal ⟨2, ![1, B]⟩ .f32) (hb : (⟨2, ![1, B]⟩ : Shape).Broadcasts ⟨2, ![A, B]⟩) (p : Fin A) (e : Fin B) :
    tileLayer A K B lhs w s t hb (ix2 p e)
      = foldedLayer (fun k => lhs (ix2 p k)) (fun k j => w (ix2 k j)) (fun j => s (ix2 (0 : Fin 1) j)) (fun j => t (ix2 (0 : Fin 1) j)) e := by
  unfold tileLayer foldedLayer sgn
  rw [select_apply, cmpf_apply, addf_apply, mulf_apply, broadcast_apply, broadcast_apply, broadcast_apply,
    Cert.LibRowBroadcast.broadcastTo_1b_ab_apply s hb p e 0, Cert.LibRowBroadcast.broadcastTo_1b_ab_apply t hb p e 0]
  have hm : matmul (DotDims.plain A K B) none lhs w (constant ⟨2, ![A, B]⟩ .f32 0x00000000#32) (ix2 p e)
      = ∑ k : Fin K, lhs (ix2 p k) * w (ix2 k e) := matmul_plain_zero_apply A K B none lhs w p e
  rw [hm]
  rfl

/-- The last layer on a tile: product, then a scale row. -/
def tileLast (A K B : ℕ) {φ ψ : FTy} (lhs : FVec Ideal ⟨2, ![A, K]⟩ φ) (w : FVec Ideal ⟨2, ![K, B]⟩ ψ)
    (s : FVec Ideal ⟨2, ![1, B]⟩ .f32) (hb : (⟨2, ![1, B]⟩ : Shape).Broadcasts ⟨2, ![A, B]⟩) : FVec Ideal ⟨2, ![A, B]⟩ .f32 :=
  mulf (matmul (DotDims.plain A K B) none lhs w (constant ⟨2, ![A, B]⟩ .f32 0x00000000#32)) (broadcastTo ⟨2, ![A, B]⟩ s hb)

/-- At (p, e) the last tile layer is the folded last layer of row p. -/
theorem tileLast_apply (A K B : ℕ) {φ ψ : FTy} (lhs : FVec Ideal ⟨2, ![A, K]⟩ φ) (w : FVec Ideal ⟨2, ![K, B]⟩ ψ)
    (s : FVec Ideal ⟨2, ![1, B]⟩ .f32) (hb : (⟨2, ![1, B]⟩ : Shape).Broadcasts ⟨2, ![A, B]⟩) (p : Fin A) (e : Fin B) :
    tileLast A K B lhs w s hb (ix2 p e)
      = foldedLast (fun k => lhs (ix2 p k)) (fun k j => w (ix2 k j)) (fun j => s (ix2 (0 : Fin 1) j)) e := by
  unfold tileLast foldedLast
  rw [mulf_apply, Cert.LibRowBroadcast.broadcastTo_1b_ab_apply s hb p e 0]
  have hm : matmul (DotDims.plain A K B) none lhs w (constant ⟨2, ![A, B]⟩ .f32 0x00000000#32) (ix2 p e)
      = ∑ k : Fin K, lhs (ix2 p k) * w (ix2 k e) := matmul_plain_zero_apply A K B none lhs w p e
  rw [hm]

end Cert.TileLayers

end
-- ==== Proof.BlockRows.lean ====
/-
  What one grid point computes, row by row.

  At a grid point the body sees a tile of 2048 input rows and the whole of every weight matrix and every scale / shift
  row. Its value is four tile layers in sequence (the changes of float format between them are the identity on the
  extended reals): three layers with a sign, then the last product with its output scale. Read at (p, e), the tile's
  output is therefore the folded network applied to row p of the input tile — no other row of the tile enters.
-/
import proofs.«134476_j27230092656811_2_alg».proof.Proof.Gen.KernelIdeal.Skeleton
import proofs.«134476_j27230092656811_2_alg».proof.Proof.TileLayers

set_option maxHeartbeats 1000000

noncomputable section

namespace Cert.BlockRows

open Cert.KernelIdeal Cert.KernelIdeal.Gen Idealize.ShloMosaic Idealize.ShloMosaic.ValueIdx Cert.SignNet Cert.TileLayers

/-- The folded network on one input row: three folded layers and the folded last layer. -/
def foldedNet (a : Fin 1024 → EReal)
    (w1 : Fin 1024 → Fin 512 → EReal) (S1 T1 : Fin 512 → EReal) (w2 : Fin 512 → Fin 256 → EReal) (S2 T2 : Fin 256 → EReal)
    (w3 : Fin 256 → Fin 128 → EReal) (S3 T3 : Fin 128 → EReal) (w4 : Fin 128 → Fin 8 → EReal) (s4 : Fin 8 → EReal) : Fin 8 → EReal :=
  foldedLast (foldedLayer (foldedLayer (foldedLayer a w1 S1 T1) w2 S2 T2) w3 S3 T3) w4 s4

/-- The body's value on a tile is four tile layers in sequence. -/
theorem tile_eq (x0 : Vec Ideal S2048x1024 .f32) (x1 : Vec Ideal S1024x512 .bf16) (x2 : Vec Ideal S512x256 .bf16) (x3 : Vec Ideal S256x128 .bf16)
    (x4 : Vec Ideal S128x8 .bf16) (x5 x6 : Vec Ideal S1x512 .f32) (x7 x8 : Vec Ideal S1x256 .f32) (x9 x10 : Vec Ideal S1x128 .f32) (x11 : Vec Ideal S1x8 .f32) :
    k0_pay1 (k0_pay2 x0 x1 x5 x6 x2 x7 x8) x3 x9 x10 x4 x11
      = tileLast 2048 128 8 (φ := .bf16) (ψ := .bf16)
          (truncf .bf16 (tileLayer 2048 256 128 (φ := .bf16) (ψ := .bf16)
            (truncf .bf16 (tileLayer 2048 512 256 (φ := .bf16) (ψ := .bf16)
              (truncf .bf16 (tileLayer 2048 1024 512 (φ := .bf16) (ψ := .bf16) (truncf .bf16 x0 bitsLt_bf16_f32) x1 x5 x6 broadcasts_S1x512_S2048x512) bitsLt_bf16_f32)
              x2 x7 x8 broadcasts_S1x256_S2048x256) bitsLt_bf16_f32)
            x3 x9 x10 broadcasts_S1x128_S2048x128) bitsLt_bf16_f32)
          x4 x11 broadcasts_S1x8_S2048x8 := by
  unfold k0_pay1 k0_pay2
  simp only [shapeCast_self]
  rfl

/-- At (p, e) the tile's output is the folded network of row p of the input tile. -/
theorem tile_apply (x0 : Vec Ideal S2048x1024 .f32) (x1 : Vec Ideal S1024x512 .bf16) (x2 : Vec Ideal S512x256 .bf16) (x3 : Vec Ideal S256x128 .bf16)
    (x4 : Vec Ideal S128x8 .bf16) (x5 x6 : Vec Ideal S1x512 .f32) (x7 x8 : Vec Ideal S1x256 .f32) (x9 x10 : Vec Ideal S1x128 .f32) (x11 : Vec Ideal S1x8 .f32) (p : Fin 2048) (e : Fin 8) :
    k0_pay1 (k0_pay2 x0 x1 x5 x6 x2 x7 x8) x3 x9 x10 x4 x11 (ix2 p e)
      = foldedNet (fun k => x0 (ix2 p k))
          (fun k j => x1 (ix2 k j)) (fun j => x5 (ix2 (0 : Fin 1) j)) (fun j => x6 (ix2 (0 : Fin 1) j))
          (fun k j => x2 (ix2 k j)) (fun j => x7 (ix2 (0 : Fin 1) j)) (fun j => x8 (ix2 (0 : Fin 1) j))
          (fun k j => x3 (ix2 k j)) (fun j => x9 (ix2 (0 : Fin 1) j)) (fun j => x10 (ix2 (0 : Fin 1) j))
          (fun k j => x4 (ix2 k j)) (fun j => x11 (ix2 (0 : Fin 1) j)) e := by
  rw [tile_eq, tileLast_apply]
  simp only [truncf_apply, tileLayer_apply]
  rfl

end Cert.BlockRows

end
-- ==== Proof.WholeArray.lean ====
/-
  From the 32 grid points to the whole result array.

  Grid point t handles rows 2048·t … 2048·t + 2047: its input window is that band of x, its output window the same band
  of the result, and every other operand's window is the whole operand at every point. The tile's output row p depends
  only on input row p of the band, so what point t writes back is the band of ONE whole-array function: at (r, e), the
  folded network applied to row r of x, with the operands as the region finds them. The 32 bands tile the result
  (row r is in band r / 2048), so after the run the result array is that function everywhere.
-/
import proofs.«134476_j27230092656811_2_alg».proof.Proof.Gen.KernelIdeal.Value
import Idealize.ShloMosaic.Lib.Pipeline.Value
import proofs.«134476_j27230092656811_2_alg».proof.Proof.BlockRows

set_option maxHeartbeats 4000000

noncomputable section

namespace Cert.WholeArray

open Cert.KernelIdeal Cert.KernelIdeal.Gen Idealize.ShloMosaic Idealize.ShloMosaic.TcCoe Idealize.SL.Sem Idealize.ShloMosaic.ValueIdx
  Cert.SignNet Cert.BlockRows
open Idealize.ShloMosaic.Pipeline (Dat)

variable (m : (ℓ : Loc nD τ sig) → Buf (Elt Ideal) ℓ) (ρ : Dev nD → PrngReg)

/-- The folded network depends on its parameters only through their values. -/
theorem foldedNet_congr {a a' : Fin 1024 → EReal} {w1 w1' : Fin 1024 → Fin 512 → EReal} {S1 S1' T1 T1' : Fin 512 → EReal}
    {w2 w2' : Fin 512 → Fin 256 → EReal} {S2 S2' T2 T2' : Fin 256 → EReal} {w3 w3' : Fin 256 → Fin 128 → EReal} {S3 S3' T3 T3' : Fin 128 → EReal}
    {w4 w4' : Fin 128 → Fin 8 → EReal} {s4 s4' : Fin 8 → EReal} {e e' : Fin 8}
    (ha : ∀ k, a k = a' k) (h1 : ∀ k j, w1 k j = w1' k j) (hS1 : ∀ j, S1 j = S1' j) (hT1 : ∀ j, T1 j = T1' j)
    (h2 : ∀ k j, w2 k j = w2' k j) (hS2 : ∀ j, S2 j = S2' j) (hT2 : ∀ j, T2 j = T2' j)
    (h3 : ∀ k j, w3 k j = w3' k j) (hS3 : ∀ j, S3 j = S3' j) (hT3 : ∀ j, T3 j = T3' j)
    (h4 : ∀ k j, w4 k j = w4' k j) (hs4 : ∀ j, s4 j = s4' j) (he : e = e') :
    foldedNet a w1 S1 T1 w2 S2 T2 w3 S3 T3 w4 s4 e = foldedNet a' w1' S1' T1' w2' S2' T2' w3' S3' T3' w4' s4' e' := by
  obtain rfl : a = a' := funext ha
  obtain rfl : w1 = w1' := funext fun k => funext (h1 k)
  obtain rfl : S1 = S1' := funext hS1
  obtain rfl : T1 = T1' := funext hT1
  obtain rfl : w2 = w2' := funext fun k => funext (h2 k)
  obtain rfl : S2 = S2' := funext hS2
  obtain rfl : T2 = T2' := funext hT2
  obtain rfl : w3 = w3' := funext fun k => funext (h3 k)
  obtain rfl : S3 = S3' := funext hS3
  obtain rfl : T3 = T3' := funext hT3
  obtain rfl : w4 = w4' := funext fun k => funext (h4 k)
  obtain rfl : s4 = s4' := funext hs4
  rw [he]

/-- The result as one function of the arrays the region finds: at (r, e), the folded network of row r of x. -/
def result (c : Dev nD) : S65536x8.Idx → EReal := fun i =>
  foldedNet (fun k => (V (F := Ideal) m c main_arg0 : S65536x1024.Idx → EReal) (ix2 (i 0 : Fin 65536) k))
    (fun k j => (V (F := Ideal) m c main_v26 : S1024x512.Idx → EReal) (ix2 k j)) (fun j => (V (F := Ideal) m c main_v41 : S1x512.Idx → EReal) (ix2 (0 : Fin 1) j)) (fun j => (V (F := Ideal) m c main_v42 : S1x512.Idx → EReal) (ix2 (0 : Fin 1) j))
    (fun k j => (V (F := Ideal) m c main_v28 : S512x256.Idx → EReal) (ix2 k j)) (fun j => (V (F := Ideal) m c main_v51 : S1x256.Idx → EReal) (ix2 (0 : Fin 1) j)) (fun j => (V (F := Ideal) m c main_v52 : S1x256.Idx → EReal) (ix2 (0 : Fin 1) j))
    (fun k j => (V (F := Ideal) m c main_v30 : S256x128.Idx → EReal) (ix2 k j)) (fun j => (V (F := Ideal) m c main_v61 : S1x128.Idx → EReal) (ix2 (0 : Fin 1) j)) (fun j => (V (F := Ideal) m c main_v62 : S1x128.Idx → EReal) (ix2 (0 : Fin 1) j))
    (fun k j => (V (F := Ideal) m c main_v32 : S128x8.Idx → EReal) (ix2 k j)) (fun j => (V (F := Ideal) m c main_v63 : S1x8.Idx → EReal) (ix2 (0 : Fin 1) j)) (i 1 : Fin 8)

theorem hz : (![0, 0] : Fin 2 → Nat) = fun _ => 0 := funext fun a => by fin_cases a <;> rfl

/-- The printed index maps, decided over the 32 points: the input band moves with the output band, and every other
    window sits at block (0, 0). -/
theorem idx_facts : ∀ t : Fin cfg0.N, win0_0.index t (0 : Fin 2) = win0_12.index t (0 : Fin 2) ∧ win0_0.index t (1 : Fin 2) = 0
    ∧ win0_12.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- What point t writes back is band t of `result`. -/
theorem flushed_eq (c : Dev nD) (t : Fin cfg0.N) :
    (dats m 0 c).flushed 12 t = ((cfg0.win 12).blk t).view.read (Elt Ideal) (result m c) := by
  rw [Value.flushed12]
  unfold out0_12
  rw [View.canon_unit_zero hz]
  simp only [View.ld_unit_zero (S := S2048x1024) hz, View.ld_unit_zero (S := S1024x512) hz, View.ld_unit_zero (S := S1x512) hz, View.ld_unit_zero (S := S512x256) hz, View.ld_unit_zero (S := S1x256) hz, View.ld_unit_zero (S := S256x128) hz, View.ld_unit_zero (S := S1x128) hz, View.ld_unit_zero (S := S128x8) hz, View.ld_unit_zero (S := S1x8) hz]
  obtain ⟨f0, f1, f2, g1a, g1b, g2a, g2b, g3a, g3b, g4a, g4b, g5a, g5b, g6a, g6b, g7a, g7b, g8a, g8b, g9a, g9b, g10a, g10b, g11a, g11b⟩ := idx_facts t
  funext y
  obtain ⟨p, e, rfl⟩ : ∃ (p : Fin 2048) (e : Fin 8), y = ix2 p e := ⟨y 0, y 1, eq_ix2 y⟩
  rw [View.read_apply]
  refine (tile_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p e).trans ?_
  unfold result
  refine foldedNet_congr ?_ ?_ ?_ ?_ ?_ ?_ ?_ ?_ ?_ ?_ ?_ ?_ ?_
  · intro k
    show (V (F := Ideal) m c main_arg0 : S65536x1024.Idx → EReal) (((cfg0.win 0).blk t).view.emb (ix2 p k)) = (V (F := Ideal) m c main_arg0 : S65536x1024.Idx → EReal) (ix2 _ k)
    congr 1; funext a; apply Fin.ext
    match a with
    | ⟨0, _⟩ => show win0_0.index t (0 : Fin 2) * 2048 + 1 * p.val = win0_12.index t (0 : Fin 2) * 2048 + 1 * p.val; omega
    | ⟨1, _⟩ => show win0_0.index t (1 : Fin 2) * 1024 + 1 * k.val = k.val; omega
  · intro k j
    show (V (F := Ideal) m c main_v26 : S1024x512.Idx → EReal) (((cfg0.win 1).blk t).view.emb (ix2 k j)) = (V (F := Ideal) m c main_v26 : S1024x512.Idx → EReal) (ix2 k j)
    congr 1; funext a; apply Fin.ext
    match a with
    | ⟨0, _⟩ => show win0_1.index t (0 : Fin 2) * 1024 + 1 * k.val = k.val; omega
    | ⟨1, _⟩ => show win0_1.index t (1 : Fin 2) * 512 + 1 * j.val = j.val; omega
  · intro j
    show (V (F := Ideal) m c main_v41 : S1x512.Idx → EReal) (((cfg0.win 5).blk t).view.emb (ix2 (0 : Fin 1) j)) = (V (F := Ideal) m c main_v41 : S1x512.Idx → EReal) (ix2 (0 : Fin 1) j)
    congr 1; funext a; apply Fin.ext
    match a with
    | ⟨0, _⟩ => show win0_5.index t (0 : Fin 2) * 1 + 1 * 0 = 0; omega
    | ⟨1, _⟩ => show win0_5.index t (1 : Fin 2) * 512 + 1 * j.val = j.val; omega
  · intro j
    show (V (F := Ideal) m c main_v42 : S1x512.Idx → EReal) (((cfg0.win 6).blk t).view.emb (ix2 (0 : Fin 1) j)) = (V (F := Ideal) m c main_v42 : S1x512.Idx → EReal) (ix2 (0 : Fin 1) j)
    congr 1; funext a; apply Fin.ext
    match a with
    | ⟨0, _⟩ => show win0_6.index t (0 : Fin 2) * 1 + 1 * 0 = 0; omega
    | ⟨1, _⟩ => show win0_6.index t (1 : Fin 2) * 512 + 1 * j.val = j.val; omega
  · intro k j
    show (V (F := Ideal) m c main_v28 : S512x256.Idx → EReal) (((cfg0.win 2).blk t).view.emb (ix2 k j)) = (V (F := Ideal) m c main_v28 : S512x256.Idx → EReal) (ix2 k j)
    congr 1; funext a; apply Fin.ext
    match a with
    | ⟨0, _⟩ => show win0_2.index t (0 : Fin 2) * 512 + 1 * k.val = k.val; omega
    | ⟨1, _⟩ => show win0_2.index t (1 : Fin 2) * 256 + 1 * j.val = j.val; omega
  · intro j
    show (V (F := Ideal) m c main_v51 : S1x256.Idx → EReal) (((cfg0.win 7).blk t).view.emb (ix2 (0 : Fin 1) j)) = (V (F := Ideal) m c main_v51 : S1x256.Idx → EReal) (ix2 (0 : Fin 1) j)
    congr 1; funext a; apply Fin.ext
    match a with
    | ⟨0, _⟩ => show win0_7.index t (0 : Fin 2) * 1 + 1 * 0 = 0; omega
    | ⟨1, _⟩ => show win0_7.index t (1 : Fin 2) * 256 + 1 * j.val = j.val; omega
  · intro j
    show (V (F := Ideal) m c main_v52 : S1x256.Idx → EReal) (((cfg0.win 8).blk t).view.emb (ix2 (0 : Fin 1) j)) = (V (F := Ideal) m c main_v52 : S1x256.Idx → EReal) (ix2 (0 : Fin 1) j)
    congr 1; funext a; apply Fin.ext
    match a with
    | ⟨0, _⟩ => show win0_8.index t (0 : Fin 2) * 1 + 1 * 0 = 0; omega
    | ⟨1, _⟩ => show win0_8.index t (1 : Fin 2) * 256 + 1 * j.val = j.val; omega
  · intro k j
    show (V (F := Ideal) m c main_v30 : S256x128.Idx → EReal) (((cfg0.win 3).blk t).view.emb (ix2 k j)) = (V (F := Ideal) m c main_v30 : S256x128.Idx → EReal) (ix2 k j)
    congr 1; funext a; apply Fin.ext
    match a with
    | ⟨0, _⟩ => show win0_3.index t (0 : Fin 2) * 256 + 1 * k.val = k.val; omega
    | ⟨1, _⟩ => show win0_3.index t (1 : Fin 2) * 128 + 1 * j.val = j.val; omega
  · intro j
    show (V (F := Ideal) m c main_v61 : S1x128.Idx → EReal) (((cfg0.win 9).blk t).view.emb (ix2 (0 : Fin 1) j)) = (V (F := Ideal) m c main_v61 : S1x128.Idx → EReal) (ix2 (0 : Fin 1) j)
    congr 1; funext a; apply Fin.ext
    match a with
    | ⟨0, _⟩ => show win0_9.index t (0 : Fin 2) * 1 + 1 * 0 = 0; omega
    | ⟨1, _⟩ => show win0_9.index t (1 : Fin 2) * 128 + 1 * j.val = j.val; omega
  · intro j
    show (V (F := Ideal) m c main_v62 : S1x128.Idx → EReal) (((cfg0.win 10).blk t).view.emb (ix2 (0 : Fin 1) j)) = (V (F := Ideal) m c main_v62 : S1x128.Idx → EReal) (ix2 (0 : Fin 1) j)
    congr 1; funext a; apply Fin.ext
    match a with
    | ⟨0, _⟩ => show win0_10.index t (0 : Fin 2) * 1 + 1 * 0 = 0; omega
    | ⟨1, _⟩ => show win0_10.index t (1 : Fin 2) * 128 + 1 * j.val = j.val; omega
  · intro k j
    show (V (F := Ideal) m c main_v32 : S128x8.Idx → EReal) (((cfg0.win 4).blk t).view.emb (ix2 k j)) = (V (F := Ideal) m c main_v32 : S128x8.Idx → EReal) (ix2 k j)
    congr 1; funext a; apply Fin.ext
    match a with
    | ⟨0, _⟩ => show win0_4.index t (0 : Fin 2) * 128 + 1 * k.val = k.val; omega
    | ⟨1, _⟩ => show win0_4.index t (1 : Fin 2) * 8 + 1 * j.val = j.val; omega
  · intro j
    show (V (F := Ideal) m c main_v63 : S1x8.Idx → EReal) (((cfg0.win 11).blk t).view.emb (ix2 (0 : Fin 1) j)) = (V (F := Ideal) m c main_v63 : S1x8.Idx → EReal) (ix2 (0 : Fin 1) j)
    congr 1; funext a; apply Fin.ext
    match a with
    | ⟨0, _⟩ => show win0_11.index t (0 : Fin 2) * 1 + 1 * 0 = 0; omega
    | ⟨1, _⟩ => show win0_11.index t (1 : Fin 2) * 8 + 1 * j.val = j.val; omega
  · apply Fin.ext
    show e.val = win0_12.index t (1 : Fin 2) * 8 + 1 * e.val
    omega

/-- An index of the result is in band t iff each coordinate is in the band's range on its axis. -/
theorem mem_blk (t : Fin cfg0.N) (i : S65536x8.Idx) :
    i ∈ ((cfg0.win 12).blk t).view.set ↔ ∀ a : Fin 2, win0_12.index t a * S2048x8.size a ≤ (i a).val ∧ (i a).val < win0_12.index t a * S2048x8.size a + S2048x8.size a := by
  show i ∈ ((View.whole main_v64).slice (win0_12.rect t)).set ↔ _
  rw [View.set_slice_whole, Rect.mem_set_unit]
  exact Iff.rfl

/-- Every band is some point's. -/
theorem idx_onto : ∀ q : Fin 32, ∃ t : Fin cfg0.N, win0_12.index t = ![q.val, 0] :=
  (by decide +kernel : ∀ q : Fin 32, ∃ t : Fin grid0.N, win0_12.index t = ![q.val, 0])

/-- Every index of the result lies in the band of some point that writes back. -/
theorem cover (i : S65536x8.Idx) : ∃ t : Fin cfg0.N, (cfg0.win 12).flush t = true ∧ i ∈ ((cfg0.win 12).blk t).view.set := by
  have hi0 : (i 0).val < 65536 := (i 0).isLt
  have hi1 : (i 1).val < 8 := (i 1).isLt
  obtain ⟨t, ht⟩ := idx_onto ⟨(i 0).val / 2048, by omega⟩
  have q0 : win0_12.index t (0 : Fin 2) = (i 0).val / 2048 := congrFun ht 0
  have q1 : win0_12.index t (1 : Fin 2) = 0 := congrFun ht 1
  refine ⟨t, flush0_12 t, ?_⟩
  rw [mem_blk]
  intro a
  match a with
  | ⟨0, _⟩ => show win0_12.index t (0 : Fin 2) * 2048 ≤ (i 0).val ∧ (i 0).val < win0_12.index t (0 : Fin 2) * 2048 + 2048; omega
  | ⟨1, _⟩ => show win0_12.index t (1 : Fin 2) * 8 ≤ (i 1).val ∧ (i 1).val < win0_12.index t (1 : Fin 2) * 8 + 8; omega

/-- After the run the result array is `result`. -/
theorem final (c : Dev nD) : (dats m 0 c).arrAt 12 cfg0.N = result m c :=
  (dats m 0 c).arrAt_eq_of_cover 12 (result m c) (fun t _ => flushed_eq m c t) cover

end Cert.WholeArray

end
-- ==== Proof.Args.lean ====
/-
  The seventeen argument arrays of the kernel's program, as functions from an index to an extended real.
-/
import proofs.«134476_j27230092656811_2_alg».proof.KernelIdeal
import Idealize.ShloMosaic.PureOps.Ideal

noncomputable section

namespace Cert.Args

open Cert.KernelIdeal Idealize.ShloMosaic Idealize.ShloMosaic.TcCoe Idealize.SL.Sem

variable (m : (ℓ : Loc nD τ sig) → Buf (Elt Ideal) ℓ)

abbrev arg0 (c : Dev nD) : S65536x1024.Idx → EReal := m ((c : Thread nD τ).loc main_arg0)
abbrev arg1 (c : Dev nD) : S512x1024.Idx → EReal := m ((c : Thread nD τ).loc main_arg1)
abbrev arg2 (c : Dev nD) : S256x512.Idx → EReal := m ((c : Thread nD τ).loc main_arg2)
abbrev arg3 (c : Dev nD) : S128x256.Idx → EReal := m ((c : Thread nD τ).loc main_arg3)
abbrev arg4 (c : Dev nD) : S8x128.Idx → EReal := m ((c : Thread nD τ).loc main_arg4)
abbrev arg5 (c : Dev nD) : S512.Idx → EReal := m ((c : Thread nD τ).loc main_arg5)
abbrev arg6 (c : Dev nD) : S512.Idx → EReal := m ((c : Thread nD τ).loc main_arg6)
abbrev arg7 (c : Dev nD) : S512.Idx → EReal := m ((c : Thread nD τ).loc main_arg7)
abbrev arg8 (c : Dev nD) : S512.Idx → EReal := m ((c : Thread nD τ).loc main_arg8)
abbrev arg9 (c : Dev nD) : S256.Idx → EReal := m ((c : Thread nD τ).loc main_arg9)
abbrev arg10 (c : Dev nD) : S256.Idx → EReal := m ((c : Thread nD τ).loc main_arg10)
abbrev arg11 (c : Dev nD) : S256.Idx → EReal := m ((c : Thread nD τ).loc main_arg11)
abbrev arg12 (c : Dev nD) : S256.Idx → EReal := m ((c : Thread nD τ).loc main_arg12)
abbrev arg13 (c : Dev nD) : S128.Idx → EReal := m ((c : Thread nD τ).loc main_arg13)
abbrev arg14 (c : Dev nD) : S128.Idx → EReal := m ((c : Thread nD τ).loc main_arg14)
abbrev arg15 (c : Dev nD) : S128.Idx → EReal := m ((c : Thread nD τ).loc main_arg15)
abbrev arg16 (c : Dev nD) : S128.Idx → EReal := m ((c : Thread nD τ).loc main_arg16)

end Cert.Args

end
-- ==== Proof.KernelWeights.lean ====
/-
  The weight operands of the kernel's one call, as the region finds them.

  Before the call the program quantises the weights: layer 1's matrix to integer codes (W divided by the scale
  max|W|/127, rounded, clipped to [−128, 127]), the other three to their signs (1 where W ≥ 0, −1 elsewhere); each is
  then transposed and changed to a narrower float format, which on the extended reals is the identity. The reference
  computes the same codes by the same operations, so the code operand at (k, j) is the reference's code array at
  (j, k); a sign operand at (k, j) is sgn W(j, k). The last operand is the mean of |W4| spread over a row of 8.
-/
import proofs.«134476_j27230092656811_2_alg».proof.Proof.Gen.KernelIdeal.Frame
import proofs.«134476_j27230092656811_2_alg».proof.Proof.Gen.ReferenceIdeal.Read
import Idealize.ShloMosaic.Lib.StableHlo.Run
import Idealize.ShloMosaic.Lib.ValueIdx
import Idealize.ShloMosaic.Lib.Pipeline.Value
import proofs.«134476_j27230092656811_2_alg».proof.Proof.Args
import proofs.«134476_j27230092656811_2_alg».proof.Proof.SignNet

set_option maxHeartbeats 2000000

noncomputable section

namespace Cert.KernelWeights

open Cert.KernelIdeal Cert.KernelIdeal.Gen Idealize.ShloMosaic Idealize.ShloMosaic.TcCoe Idealize.SL.Sem Idealize.ShloMosaic.StableHlo
  Idealize.ShloMosaic.ValueIdx Cert.Args Cert.SignNet

variable (m : (ℓ : Loc nD τ sig) → Buf (Elt Ideal) ℓ)

/-- A scalar spread over a shape reads, everywhere, as the scalar. -/
theorem splat_apply {α : Type} {s : Shape} (hb : (⟨0, ![]⟩ : Shape).BroadcastsInDim s ![]) (x : (⟨0, ![]⟩ : Shape).Idx → α) (i : s.Idx) :
    broadcastInDim s ![] hb x i = x ix0 := broadcastInDim_apply ![] hb x i ix0 (fun a => a.elim0)

/-- The integer codes, transposed: operand 1 at (k, j) is the reference's code array at (j, k). -/
theorem codes (c : Dev nD) (k : Fin 1024) (j : Fin 512) :
    (V (F := Ideal) m c main_v26 : S1024x512.Idx → EReal) (ix2 k j)
      = (Cert.ReferenceIdeal.Read.val_main_v6 (F := Ideal) (arg1 m c) : S512x1024.Idx → EReal) (ix2 j k) := by
  have e : (V (F := Ideal) m c main_v26 : S1024x512.Idx → EReal)
      = (truncf (F := Ideal) .bf16 (transpose S1024x512 [1, 0] (Cert.ReferenceIdeal.Read.val_main_v6 (F := Ideal) (arg1 m c) : S512x1024.Idx → EReal)
          transposes_S512x1024_S1024x512_1_0) bitsLt_bf16_f32 : S1024x512.Idx → EReal) := by
    dsimp only [V]
    simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
    after_results_simp
    rfl
  rw [e, truncf_apply]
  exact transpose_apply [1, 0] _ transposes_S512x1024_S1024x512_1_0 (ix2 k j) (ix2 j k) (fun b => match b with
    | ⟨0, _⟩ => rfl
    | ⟨1, _⟩ => rfl)

/-- Layer 2's signs, transposed. -/
theorem signs2 (c : Dev nD) (k : Fin 512) (j : Fin 256) :
    (V (F := Ideal) m c main_v28 : S512x256.Idx → EReal) (ix2 k j) = sgn (arg2 m c (ix2 j k)) := by
  have e : (V (F := Ideal) m c main_v28 : S512x256.Idx → EReal)
      = (truncf (F := Ideal) .bf16 (transpose S512x256 [1, 0]
          (select (cmpf (F := Ideal) (φ := .f32) .oge (arg2 m c) (broadcastInDim S256x512 ![] bcast_S_S256x512 (constant (F := Ideal) S_ .f32 0x00000000#32)))
            (broadcastInDim S256x512 ![] bcast_S_S256x512 (constant (F := Ideal) S_ .f32 0x3F800000#32))
            (broadcastInDim S256x512 ![] bcast_S_S256x512 (constant (F := Ideal) S_ .f32 0xBF800000#32)) : S256x512.Idx → EReal)
          transposes_S256x512_S512x256_1_0) bitsLt_bf16_f32 : S512x256.Idx → EReal) := by
    dsimp only [V]
    simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
    after_results_simp
    rfl
  rw [e, truncf_apply, transpose_apply [1, 0] _ transposes_S256x512_S512x256_1_0 (ix2 k j) (ix2 j k) (fun b => match b with
    | ⟨0, _⟩ => rfl
    | ⟨1, _⟩ => rfl)]
  simp only [select_apply, cmpf_apply, splat_apply, constant_apply]
  rfl

/-- Layer 3's signs, transposed. -/
theorem signs3 (c : Dev nD) (k : Fin 256) (j : Fin 128) :
    (V (F := Ideal) m c main_v30 : S256x128.Idx → EReal) (ix2 k j) = sgn (arg3 m c (ix2 j k)) := by
  have e : (V (F := Ideal) m c main_v30 : S256x128.Idx → EReal)
      = (truncf (F := Ideal) .bf16 (transpose S256x128 [1, 0]
          (select (cmpf (F := Ideal) (φ := .f32) .oge (arg3 m c) (broadcastInDim S128x256 ![] bcast_S_S128x256 (constant (F := Ideal) S_ .f32 0x00000000#32)))
            (broadcastInDim S128x256 ![] bcast_S_S128x256 (constant (F := Ideal) S_ .f32 0x3F800000#32))
            (broadcastInDim S128x256 ![] bcast_S_S128x256 (constant (F := Ideal) S_ .f32 0xBF800000#32)) : S128x256.Idx → EReal)
          transposes_S128x256_S256x128_1_0) bitsLt_bf16_f32 : S256x128.Idx → EReal) := by
    dsimp only [V]
    simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
    after_results_simp
    rfl
  rw [e, truncf_apply, transpose_apply [1, 0] _ transposes_S128x256_S256x128_1_0 (ix2 k j) (ix2 j k) (fun b => match b with
    | ⟨0, _⟩ => rfl
    | ⟨1, _⟩ => rfl)]
  simp only [select_apply, cmpf_apply, splat_apply, constant_apply]
  rfl

/-- Layer 4's signs, transposed. -/
theorem signs4 (c : Dev nD) (k : Fin 128) (j : Fin 8) :
    (V (F := Ideal) m c main_v32 : S128x8.Idx → EReal) (ix2 k j) = sgn (arg4 m c (ix2 j k)) := by
  have e : (V (F := Ideal) m c main_v32 : S128x8.Idx → EReal)
      = (truncf (F := Ideal) .bf16 (transpose S128x8 [1, 0]
          (select (cmpf (F := Ideal) (φ := .f32) .oge (arg4 m c) (broadcastInDim S8x128 ![] bcast_S_S8x128 (constant (F := Ideal) S_ .f32 0x00000000#32)))
            (broadcastInDim S8x128 ![] bcast_S_S8x128 (constant (F := Ideal) S_ .f32 0x3F800000#32))
            (broadcastInDim S8x128 ![] bcast_S_S8x128 (constant (F := Ideal) S_ .f32 0xBF800000#32)) : S8x128.Idx → EReal)
          transposes_S8x128_S128x8_1_0) bitsLt_bf16_f32 : S128x8.Idx → EReal) := by
    dsimp only [V]
    simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
    after_results_simp
    rfl
  rw [e, truncf_apply, transpose_apply [1, 0] _ transposes_S8x128_S128x8_1_0 (ix2 k j) (ix2 j k) (fun b => match b with
    | ⟨0, _⟩ => rfl
    | ⟨1, _⟩ => rfl)]
  simp only [select_apply, cmpf_apply, splat_apply, constant_apply]
  rfl

/-- The output scale: the mean of |W4|, the same in each of the 8 columns. -/
theorem scale4 (c : Dev nD) (u : Fin 1) (e : Fin 8) :
    (V (F := Ideal) m c main_v63 : S1x8.Idx → EReal) (ix2 u e) = (Cert.ReferenceIdeal.Read.val_main_v88 (F := Ideal) (arg4 m c) : S_.Idx → EReal) ix0 := by
  have e' : (V (F := Ideal) m c main_v63 : S1x8.Idx → EReal)
      = broadcastInDim S1x8 ![] bcast_S_S1x8 (Cert.ReferenceIdeal.Read.val_main_v88 (F := Ideal) (arg4 m c) : S_.Idx → EReal) := by
    dsimp only [V]
    simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
    after_results_simp
    rfl
  rw [e', splat_apply]

end Cert.KernelWeights

end
-- ==== Proof.KernelRows.lean ====
/-
  The scale and shift rows of the kernel's one call, as the region finds them.

  Before the call the program folds each layer's normalisation into one multiply-add: with ρ = rsqrt(v + ε) the
  reciprocal deviation, the scale row is (γ · ρ) · s — s the layer's weight scale, max|W|/127 or mean|W| — and the shift
  row is β − μ · (γ · ρ); each is a vector of B entries laid out as one row [1, B]. The reference computes ρ and s by the
  same operations, so the rows are stated over the reference's own ρ and s.
-/
import proofs.«134476_j27230092656811_2_alg».proof.Proof.Gen.KernelIdeal.Frame
import proofs.«134476_j27230092656811_2_alg».proof.Proof.Gen.ReferenceIdeal.Read
import Idealize.ShloMosaic.Lib.StableHlo.Run
import Idealize.ShloMosaic.Lib.ValueIdx
import Idealize.ShloMosaic.Lib.Pipeline.Value
import proofs.«134476_j27230092656811_2_alg».proof.Proof.Args
import proofs.«134476_j27230092656811_2_alg».proof.Proof.SignNet

set_option maxHeartbeats 2000000

noncomputable section

namespace Cert.KernelRows

open Cert.KernelIdeal Cert.KernelIdeal.Gen Idealize.ShloMosaic Idealize.ShloMosaic.TcCoe Idealize.SL.Sem Idealize.ShloMosaic.StableHlo
  Idealize.ShloMosaic.ValueIdx Cert.Args Cert.SignNet

variable (m : (ℓ : Loc nD τ sig) → Buf (Elt Ideal) ℓ)

/-- A scalar spread over a shape reads, everywhere, as the scalar. -/
theorem splat_apply {α : Type} {s : Shape} (hb : (⟨0, ![]⟩ : Shape).BroadcastsInDim s ![]) (x : (⟨0, ![]⟩ : Shape).Idx → α) (i : s.Idx) :
    broadcastInDim s ![] hb x i = x ix0 := broadcastInDim_apply ![] hb x i ix0 (fun a => a.elim0)

/-- Layer 1's folded scale row: (γ · ρ) · s, with ρ the reciprocal deviation and s the weight scale. -/
theorem scale1 (c : Dev nD) (u : Fin 1) (j : Fin 512) :
    (V (F := Ideal) m c main_v41 : S1x512.Idx → EReal) (ix2 u j)
      = (arg5 m c (ix1 j) * (Cert.ReferenceIdeal.Read.val_main_v16 (F := Ideal) (arg8 m c) : S512.Idx → EReal) (ix1 j))
          * (Cert.ReferenceIdeal.Read.val_main_v2 (F := Ideal) (arg1 m c) : S_.Idx → EReal) ix0 := by
  have e : (V (F := Ideal) m c main_v41 : S1x512.Idx → EReal)
      = shapeCast S1x512 (mulf (F := Ideal) (φ := .f32) (mulf (F := Ideal) (φ := .f32) (arg5 m c) (Cert.ReferenceIdeal.Read.val_main_v16 (F := Ideal) (arg8 m c)))
          (broadcastInDim S512 ![] bcast_S_S512 (Cert.ReferenceIdeal.Read.val_main_v2 (F := Ideal) (arg1 m c) : S_.Idx → EReal))) shapeCasts_S512_S1x512 := by
    dsimp only [V]
    simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
    after_results_simp
    rfl
  rw [e, shapeCast_apply _ shapeCasts_S512_S1x512 (ix2 u j) (ix1 j) (by rw [Shape.rowMajor_val_one, Shape.rowMajor_val_two]; show j.val = u.val * 512 + j.val; have := u.isLt; omega)]
  rw [mulf_apply, mulf_apply, splat_apply]

/-- Layer 1's folded shift row: β − μ · (γ · ρ). -/
theorem shift1 (c : Dev nD) (u : Fin 1) (j : Fin 512) :
    (V (F := Ideal) m c main_v42 : S1x512.Idx → EReal) (ix2 u j)
      = arg6 m c (ix1 j) - arg7 m c (ix1 j) * (arg5 m c (ix1 j) * (Cert.ReferenceIdeal.Read.val_main_v16 (F := Ideal) (arg8 m c) : S512.Idx → EReal) (ix1 j)) := by
  have e : (V (F := Ideal) m c main_v42 : S1x512.Idx → EReal)
      = shapeCast S1x512 (subf (F := Ideal) (φ := .f32) (arg6 m c) (mulf (F := Ideal) (φ := .f32) (arg7 m c)
          (mulf (F := Ideal) (φ := .f32) (arg5 m c) (Cert.ReferenceIdeal.Read.val_main_v16 (F := Ideal) (arg8 m c))))) shapeCasts_S512_S1x512 := by
    dsimp only [V]
    simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
    after_results_simp
    rfl
  rw [e, shapeCast_apply _ shapeCasts_S512_S1x512 (ix2 u j) (ix1 j) (by rw [Shape.rowMajor_val_one, Shape.rowMajor_val_two]; show j.val = u.val * 512 + j.val; have := u.isLt; omega)]
  simp only [subf_apply, mulf_apply]

/-- Layer 2's folded scale row: (γ · ρ) · s, with ρ the reciprocal deviation and s the weight scale. -/
theorem scale2 (c : Dev nD) (u : Fin 1) (j : Fin 256) :
    (V (F := Ideal) m c main_v51 : S1x256.Idx → EReal) (ix2 u j)
      = (arg9 m c (ix1 j) * (Cert.ReferenceIdeal.Read.val_main_v44 (F := Ideal) (arg12 m c) : S256.Idx → EReal) (ix1 j))
          * (Cert.ReferenceIdeal.Read.val_main_v32 (F := Ideal) (arg2 m c) : S_.Idx → EReal) ix0 := by
  have e : (V (F := Ideal) m c main_v51 : S1x256.Idx → EReal)
      = shapeCast S1x256 (mulf (F := Ideal) (φ := .f32) (mulf (F := Ideal) (φ := .f32) (arg9 m c) (Cert.ReferenceIdeal.Read.val_main_v44 (F := Ideal) (arg12 m c)))
          (broadcastInDim S256 ![] bcast_S_S256 (Cert.ReferenceIdeal.Read.val_main_v32 (F := Ideal) (arg2 m c) : S_.Idx → EReal))) shapeCasts_S256_S1x256 := by
    dsimp only [V]
    simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
    after_results_simp
    rfl
  rw [e, shapeCast_apply _ shapeCasts_S256_S1x256 (ix2 u j) (ix1 j) (by rw [Shape.rowMajor_val_one, Shape.rowMajor_val_two]; show j.val = u.val * 256 + j.val; have := u.isLt; omega)]
  rw [mulf_apply, mulf_apply, splat_apply]

/-- Layer 2's folded shift row: β − μ · (γ · ρ). -/
theorem shift2 (c : Dev nD) (u : Fin 1) (j : Fin 256) :
    (V (F := Ideal) m c main_v52 : S1x256.Idx → EReal) (ix2 u j)
      = arg10 m c (ix1 j) - arg11 m c (ix1 j) * (arg9 m c (ix1 j) * (Cert.ReferenceIdeal.Read.val_main_v44 (F := Ideal) (arg12 m c) : S256.Idx → EReal) (ix1 j)) := by
  have e : (V (F := Ideal) m c main_v52 : S1x256.Idx → EReal)
      = shapeCast S1x256 (subf (F := Ideal) (φ := .f32) (arg10 m c) (mulf (F := Ideal) (φ := .f32) (arg11 m c)
          (mulf (F := Ideal) (φ := .f32) (arg9 m c) (Cert.ReferenceIdeal.Read.val_main_v44 (F := Ideal) (arg12 m c))))) shapeCasts_S256_S1x256 := by
    dsimp only [V]
    simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
    after_results_simp
    rfl
  rw [e, shapeCast_apply _ shapeCasts_S256_S1x256 (ix2 u j) (ix1 j) (by rw [Shape.rowMajor_val_one, Shape.rowMajor_val_two]; show j.val = u.val * 256 + j.val; have := u.isLt; omega)]
  simp only [subf_apply, mulf_apply]

/-- Layer 3's folded scale row: (γ · ρ) · s, with ρ the reciprocal deviation and s the weight scale. -/
theorem scale3 (c : Dev nD) (u : Fin 1) (j : Fin 128) :
    (V (F := Ideal) m c main_v61 : S1x128.Idx → EReal) (ix2 u j)
      = (arg13 m c (ix1 j) * (Cert.ReferenceIdeal.Read.val_main_v72 (F := Ideal) (arg16 m c) : S128.Idx → EReal) (ix1 j))
          * (Cert.ReferenceIdeal.Read.val_main_v60 (F := Ideal) (arg3 m c) : S_.Idx → EReal) ix0 := by
  have e : (V (F := Ideal) m c main_v61 : S1x128.Idx → EReal)
      = shapeCast S1x128 (mulf (F := Ideal) (φ := .f32) (mulf (F := Ideal) (φ := .f32) (arg13 m c) (Cert.ReferenceIdeal.Read.val_main_v72 (F := Ideal) (arg16 m c)))
          (broadcastInDim S128 ![] bcast_S_S128 (Cert.ReferenceIdeal.Read.val_main_v60 (F := Ideal) (arg3 m c) : S_.Idx → EReal))) shapeCasts_S128_S1x128 := by
    dsimp only [V]
    simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
    after_results_simp
    rfl
  rw [e, shapeCast_apply _ shapeCasts_S128_S1x128 (ix2 u j) (ix1 j) (by rw [Shape.rowMajor_val_one, Shape.rowMajor_val_two]; show j.val = u.val * 128 + j.val; have := u.isLt; omega)]
  rw [mulf_apply, mulf_apply, splat_apply]

/-- Layer 3's folded shift row: β − μ · (γ · ρ). -/
theorem shift3 (c : Dev nD) (u : Fin 1) (j : Fin 128) :
    (V (F := Ideal) m c main_v62 : S1x128.Idx → EReal) (ix2 u j)
      = arg14 m c (ix1 j) - arg15 m c (ix1 j) * (arg13 m c (ix1 j) * (Cert.ReferenceIdeal.Read.val_main_v72 (F := Ideal) (arg16 m c) : S128.Idx → EReal) (ix1 j)) := by
  have e : (V (F := Ideal) m c main_v62 : S1x128.Idx → EReal)
      = shapeCast S1x128 (subf (F := Ideal) (φ := .f32) (arg14 m c) (mulf (F := Ideal) (φ := .f32) (arg15 m c)
          (mulf (F := Ideal) (φ := .f32) (arg13 m c) (Cert.ReferenceIdeal.Read.val_main_v72 (F := Ideal) (arg16 m c))))) shapeCasts_S128_S1x128 := by
    dsimp only [V]
    simp only [hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
    after_results_simp
    rfl
  rw [e, shapeCast_apply _ shapeCasts_S128_S1x128 (ix2 u j) (ix1 j) (by rw [Shape.rowMajor_val_one, Shape.rowMajor_val_two]; show j.val = u.val * 128 + j.val; have := u.isLt; omega)]
  simp only [subf_apply, mulf_apply]

end Cert.KernelRows

end
-- ==== Proof.RefLayers.lean ====
/-
  The reference, one layer at a time, read at an index.

  The reference works on all 65536 rows at once, but each operation is row by row: a product with a weight matrix, then
  the mean row subtracted, the reciprocal-deviation row, the scale row and the shift row applied (each a row of B entries
  spread over all the rows), then the sign against 0. So at (r, j) a layer's output is the plain layer of row r of the
  layer's input, with the weights the transposed scaled weight matrix. The last operation is a bare product.
  The scaled weights themselves: layer 1's are the integer codes times the scale max|W|/127; the later layers' are
  s where W ≥ 0 and −s elsewhere, with s the mean of |W| — that is sgn(W)·s.
-/
import proofs.«134476_j27230092656811_2_alg».proof.Proof.Gen.ReferenceIdeal.Read
import Idealize.ShloMosaic.Lib.ValueIdx
import proofs.«134476_j27230092656811_2_alg».proof.Proof.SignNet

set_option maxHeartbeats 1000000

noncomputable section

namespace Cert.RefLayers

open Cert.ReferenceIdeal Cert.ReferenceIdeal.Read Idealize.ShloMosaic Idealize.ShloMosaic.ValueIdx Cert.SignNet

theorem lhs1 (r : Fin 65536) (j : Fin 512) (k : Fin 1024) : lidx_main_v10 (ix2 r j) k = ix2 r k := funext fun a => Fin.ext (by match a with | ⟨0, _⟩ => rfl | ⟨1, _⟩ => rfl)
theorem rhs1 (r : Fin 65536) (j : Fin 512) (k : Fin 1024) : ridx_main_v10 (ix2 r j) k = ix2 k j := funext fun a => Fin.ext (by match a with | ⟨0, _⟩ => rfl | ⟨1, _⟩ => rfl)
theorem row1_0 (r : Fin 65536) (j : Fin 512) : idx_main_v11 (idx_main_v12 (ix2 r j)) = ix1 j := funext fun a => Fin.ext (by match a with | ⟨0, _⟩ => rfl)
theorem row1_1 (r : Fin 65536) (j : Fin 512) : idx_main_v17 (idx_main_v18 (ix2 r j)) = ix1 j := funext fun a => Fin.ext (by match a with | ⟨0, _⟩ => rfl)
theorem row1_2 (r : Fin 65536) (j : Fin 512) : idx_main_v20 (idx_main_v21 (ix2 r j)) = ix1 j := funext fun a => Fin.ext (by match a with | ⟨0, _⟩ => rfl)
theorem row1_3 (r : Fin 65536) (j : Fin 512) : idx_main_v23 (idx_main_v24 (ix2 r j)) = ix1 j := funext fun a => Fin.ext (by match a with | ⟨0, _⟩ => rfl)

/-- Layer 1 of the reference at (r, j): the plain layer of row r of the layer's input. -/
theorem layer1 (x0 : (⟨S65536x1024, .f32⟩ : BufTy).Contents (Elt Ideal)) (x1 : (⟨S512x1024, .f32⟩ : BufTy).Contents (Elt Ideal)) (x2 : (⟨S256x512, .f32⟩ : BufTy).Contents (Elt Ideal)) (x3 : (⟨S128x256, .f32⟩ : BufTy).Contents (Elt Ideal)) (x4 : (⟨S8x128, .f32⟩ : BufTy).Contents (Elt Ideal)) (x5 : (⟨S512, .f32⟩ : BufTy).Contents (Elt Ideal)) (x6 : (⟨S512, .f32⟩ : BufTy).Contents (Elt Ideal)) (x7 : (⟨S512, .f32⟩ : BufTy).Contents (Elt Ideal)) (x8 : (⟨S512, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (r : Fin 65536) (j : Fin 512) :
    val_main_v29 (F := Ideal) x0 x1 x5 x6 x7 x8 (ix2 r j)
      = plainLayer (fun k => x0 (ix2 r k)) (fun k j => val_main_v9 (F := Ideal) x1 (ix2 k j)) (fun j => x7 (ix1 j))
          (fun j => val_main_v16 (F := Ideal) x8 (ix1 j)) (fun j => x5 (ix1 j)) (fun j => x6 (ix1 j)) j := by
  simp only [val_main_v29_apply, val_main_v28_apply, val_main_v27_apply, val_main_v25_apply, val_main_v22_apply, val_main_v19_apply, val_main_v13_apply, val_main_v10_apply, val_main_v12_apply, val_main_v11_apply, val_main_v18_apply, val_main_v17_apply, val_main_v21_apply, val_main_v20_apply, val_main_v24_apply, val_main_v23_apply, val_main_v26_apply, val_main_cst_3_apply, val_main_call2_v0_apply, val_main_cst_4_apply, val_main_call2_v1_apply, val_main_cst_5_apply,
    lhs1, rhs1, row1_0, row1_1, row1_2, row1_3]
  rfl

theorem lhs2 (r : Fin 65536) (j : Fin 256) (k : Fin 512) : lidx_main_v38 (ix2 r j) k = ix2 r k := funext fun a => Fin.ext (by match a with | ⟨0, _⟩ => rfl | ⟨1, _⟩ => rfl)
theorem rhs2 (r : Fin 65536) (j : Fin 256) (k : Fin 512) : ridx_main_v38 (ix2 r j) k = ix2 k j := funext fun a => Fin.ext (by match a with | ⟨0, _⟩ => rfl | ⟨1, _⟩ => rfl)
theorem row2_0 (r : Fin 65536) (j : Fin 256) : idx_main_v39 (idx_main_v40 (ix2 r j)) = ix1 j := funext fun a => Fin.ext (by match a with | ⟨0, _⟩ => rfl)
theorem row2_1 (r : Fin 65536) (j : Fin 256) : idx_main_v45 (idx_main_v46 (ix2 r j)) = ix1 j := funext fun a => Fin.ext (by match a with | ⟨0, _⟩ => rfl)
theorem row2_2 (r : Fin 65536) (j : Fin 256) : idx_main_v48 (idx_main_v49 (ix2 r j)) = ix1 j := funext fun a => Fin.ext (by match a with | ⟨0, _⟩ => rfl)
theorem row2_3 (r : Fin 65536) (j : Fin 256) : idx_main_v51 (idx_main_v52 (ix2 r j)) = ix1 j := funext fun a => Fin.ext (by match a with | ⟨0, _⟩ => rfl)

/-- Layer 2 of the reference at (r, j): the plain layer of row r of the layer's input. -/
theorem layer2 (x0 : (⟨S65536x1024, .f32⟩ : BufTy).Contents (Elt Ideal)) (x1 : (⟨S512x1024, .f32⟩ : BufTy).Contents (Elt Ideal)) (x2 : (⟨S256x512, .f32⟩ : BufTy).Contents (Elt Ideal)) (x3 : (⟨S128x256, .f32⟩ : BufTy).Contents (Elt Ideal)) (x4 : (⟨S8x128, .f32⟩ : BufTy).Contents (Elt Ideal)) (x5 : (⟨S512, .f32⟩ : BufTy).Contents (Elt Ideal)) (x6 : (⟨S512, .f32⟩ : BufTy).Contents (Elt Ideal)) (x7 : (⟨S512, .f32⟩ : BufTy).Contents (Elt Ideal)) (x8 : (⟨S512, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (r : Fin 65536) (j : Fin 256) :
    val_main_v57 (F := Ideal) x0 x1 x2 x5 x6 x7 x8 x9 x10 x11 x12 (ix2 r j)
      = plainLayer (fun k => val_main_v29 (F := Ideal) x0 x1 x5 x6 x7 x8 (ix2 r k)) (fun k j => val_main_v37 (F := Ideal) x2 (ix2 k j)) (fun j => x11 (ix1 j))
          (fun j => val_main_v44 (F := Ideal) x12 (ix1 j)) (fun j => x9 (ix1 j)) (fun j => x10 (ix1 j)) j := by
  simp only [val_main_v57_apply, val_main_v56_apply, val_main_v55_apply, val_main_v53_apply, val_main_v50_apply, val_main_v47_apply, val_main_v41_apply, val_main_v38_apply, val_main_v40_apply, val_main_v39_apply, val_main_v46_apply, val_main_v45_apply, val_main_v49_apply, val_main_v48_apply, val_main_v52_apply, val_main_v51_apply, val_main_v54_apply, val_main_cst_10_apply, val_main_call4_v0_apply, val_main_cst_11_apply, val_main_call4_v1_apply, val_main_cst_12_apply,
    lhs2, rhs2, row2_0, row2_1, row2_2, row2_3]
  rfl

theorem lhs3 (r : Fin 65536) (j : Fin 128) (k : Fin 256) : lidx_main_v66 (ix2 r j) k = ix2 r k := funext fun a => Fin.ext (by match a with | ⟨0, _⟩ => rfl | ⟨1, _⟩ => rfl)
theorem rhs3 (r : Fin 65536) (j : Fin 128) (k : Fin 256) : ridx_main_v66 (ix2 r j) k = ix2 k j := funext fun a => Fin.ext (by match a with | ⟨0, _⟩ => rfl | ⟨1, _⟩ => rfl)
theorem row3_0 (r : Fin 65536) (j : Fin 128) : idx_main_v67 (idx_main_v68 (ix2 r j)) = ix1 j := funext fun a => Fin.ext (by match a with | ⟨0, _⟩ => rfl)
theorem row3_1 (r : Fin 65536) (j : Fin 128) : idx_main_v73 (idx_main_v74 (ix2 r j)) = ix1 j := funext fun a => Fin.ext (by match a with | ⟨0, _⟩ => rfl)
theorem row3_2 (r : Fin 65536) (j : Fin 128) : idx_main_v76 (idx_main_v77 (ix2 r j)) = ix1 j := funext fun a => Fin.ext (by match a with | ⟨0, _⟩ => rfl)
theorem row3_3 (r : Fin 65536) (j : Fin 128) : idx_main_v79 (idx_main_v80 (ix2 r j)) = ix1 j := funext fun a => Fin.ext (by match a with | ⟨0, _⟩ => rfl)

/-- Layer 3 of the reference at (r, j): the plain layer of row r of the layer's input. -/
theorem layer3 (x0 : (⟨S65536x1024, .f32⟩ : BufTy).Contents (Elt Ideal)) (x1 : (⟨S512x1024, .f32⟩ : BufTy).Contents (Elt Ideal)) (x2 : (⟨S256x512, .f32⟩ : BufTy).Contents (Elt Ideal)) (x3 : (⟨S128x256, .f32⟩ : BufTy).Contents (Elt Ideal)) (x4 : (⟨S8x128, .f32⟩ : BufTy).Contents (Elt Ideal)) (x5 : (⟨S512, .f32⟩ : BufTy).Contents (Elt Ideal)) (x6 : (⟨S512, .f32⟩ : BufTy).Contents (Elt Ideal)) (x7 : (⟨S512, .f32⟩ : BufTy).Contents (Elt Ideal)) (x8 : (⟨S512, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (r : Fin 65536) (j : Fin 128) :
    val_main_v85 (F := Ideal) x0 x1 x2 x3 x5 x6 x7 x8 x9 x10 x11 x12 x13 x14 x15 x16 (ix2 r j)
      = plainLayer (fun k => val_main_v57 (F := Ideal) x0 x1 x2 x5 x6 x7 x8 x9 x10 x11 x12 (ix2 r k)) (fun k j => val_main_v65 (F := Ideal) x3 (ix2 k j)) (fun j => x15 (ix1 j))
          (fun j => val_main_v72 (F := Ideal) x16 (ix1 j)) (fun j => x13 (ix1 j)) (fun j => x14 (ix1 j)) j := by
  simp only [val_main_v85_apply, val_main_v84_apply, val_main_v83_apply, val_main_v81_apply, val_main_v78_apply, val_main_v75_apply, val_main_v69_apply, val_main_v66_apply, val_main_v68_apply, val_main_v67_apply, val_main_v74_apply, val_main_v73_apply, val_main_v77_apply, val_main_v76_apply, val_main_v80_apply, val_main_v79_apply, val_main_v82_apply, val_main_cst_17_apply, val_main_call6_v0_apply, val_main_cst_18_apply, val_main_call6_v1_apply, val_main_cst_19_apply,
    lhs3, rhs3, row3_0, row3_1, row3_2, row3_3]
  rfl

theorem lhs4 (r : Fin 65536) (e : Fin 8) (k : Fin 128) : lidx_main_v94 (ix2 r e) k = ix2 r k := funext fun a => Fin.ext (by match a with | ⟨0, _⟩ => rfl | ⟨1, _⟩ => rfl)
theorem rhs4 (r : Fin 65536) (e : Fin 8) (k : Fin 128) : ridx_main_v94 (ix2 r e) k = ix2 k e := funext fun a => Fin.ext (by match a with | ⟨0, _⟩ => rfl | ⟨1, _⟩ => rfl)

/-- The reference's result at (r, e): the bare product of row r of layer 3's output with the last scaled weights. -/
theorem last (x0 : (⟨S65536x1024, .f32⟩ : BufTy).Contents (Elt Ideal)) (x1 : (⟨S512x1024, .f32⟩ : BufTy).Contents (Elt Ideal)) (x2 : (⟨S256x512, .f32⟩ : BufTy).Contents (Elt Ideal)) (x3 : (⟨S128x256, .f32⟩ : BufTy).Contents (Elt Ideal)) (x4 : (⟨S8x128, .f32⟩ : BufTy).Contents (Elt Ideal)) (x5 : (⟨S512, .f32⟩ : BufTy).Contents (Elt Ideal)) (x6 : (⟨S512, .f32⟩ : BufTy).Contents (Elt Ideal)) (x7 : (⟨S512, .f32⟩ : BufTy).Contents (Elt Ideal)) (x8 : (⟨S512, .f32⟩ : BufTy).Contents (Elt Ideal)) (x9 : (⟨S256, .f32⟩ : BufTy).Contents (Elt Ideal)) (x10 : (⟨S256, .f32⟩ : BufTy).Contents (Elt Ideal)) (x11 : (⟨S256, .f32⟩ : BufTy).Contents (Elt Ideal)) (x12 : (⟨S256, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (r : Fin 65536) (e : Fin 8) :
    val_main_v94 (F := Ideal) x0 x1 x2 x3 x4 x5 x6 x7 x8 x9 x10 x11 x12 x13 x14 x15 x16 (ix2 r e)
      = plainLast (fun k => val_main_v85 (F := Ideal) x0 x1 x2 x3 x5 x6 x7 x8 x9 x10 x11 x12 x13 x14 x15 x16 (ix2 r k)) (fun k e => val_main_v93 (F := Ideal) x4 (ix2 k e)) e := by
  simp only [val_main_v94_apply, lhs4, rhs4]
  rfl

end Cert.RefLayers

end
-- ==== Proof.LibLogistic.lean ====
/-
  A sigmoid spelt out on the host — negate, exponential, add one, divide into one, both ones the float 1.0 — is the
  logistic function on the extended reals.

  The pattern 0x3F800000 has sign 0, exponent field 127 and fraction field 0, so it denotes
  (2^23 + 0) · 2^(127 − 127 − 23) = 1. The logistic function is by definition the quotient 1 / (1 + e^(−x)) taken
  with the extended reals' division (at −∞ the denominator is +∞ and the value 0; at +∞ the denominator is 1 and the
  value 1), so once both literals read as 1 the spelt expression IS the logistic function, with no case split.
-/
import Idealize.ShloMosaic.PureOps.Ideal
import Idealize.ShloMosaic.PureOps.Ideal.Laws

noncomputable section

namespace Cert.LibLogistic

open Idealize.ShloMosaic

/-- The float pattern of 1.0 denotes the extended real 1: (2^23 + 0) · 2^(127 − 127 − 23). -/
theorem one_f32 : Ideal.ofBits .f32 0x3F800000#32 = 1 := by
  simp [Ideal.ofBits, Ideal.ieee]
  rw [← EReal.coe_mul]
  norm_num

/-- 1 / (1 + e^(−x)), both ones spelt by the pattern of 1.0, is the logistic function of x. -/
theorem sigmoid_spelt (x : EReal) :
    Ideal.div (Ideal.ofBits .f32 0x3F800000#32) (Ideal.ofBits .f32 0x3F800000#32 + Ideal.exp (-x)) = Ideal.logistic x := by
  rw [one_f32]; rfl

end Cert.LibLogistic

end
-- ==== Proof.ScaledWeights.lean ====
/-
  The reference's weight matrices, read at an index.

  Layer 1 multiplies the integer codes by the scale max|W|/127 and transposes: at (k, j) the scaled weight is the code
  at (j, k) times the scale. The other layers take s where W ≥ 0 and −s elsewhere, s the mean of |W|, and transpose;
  choosing between s and −s is multiplying s by the choice between 1 and −1, so at (k, j) the scaled weight is
  sgn W(j, k) · s. (The words of 1.0 and −1.0 denote 1 and −1: sign bit, exponent field 127, fraction 0.)
-/
import proofs.«134476_j27230092656811_2_alg».proof.Proof.Gen.ReferenceIdeal.Read
import Idealize.ShloMosaic.Lib.ValueIdx
import proofs.«134476_j27230092656811_2_alg».proof.Proof.LibLogistic
import proofs.«134476_j27230092656811_2_alg».proof.Proof.SignNet

noncomputable section

namespace Cert.ScaledWeights

open Cert.ReferenceIdeal Cert.ReferenceIdeal.Read Idealize.ShloMosaic Idealize.ShloMosaic.ValueIdx Cert.SignNet

/-- The word of −1.0 denotes −1. -/
theorem neg_one_f32 : Ideal.ofBits .f32 0xBF800000#32 = -1 := by
  simp [Ideal.ofBits, Ideal.ieee]
  rw [← EReal.coe_mul]
  norm_num

/-- Choosing between s and −s is s times the choice between 1 and −1. -/
theorem select_scale (c : BitVec 1) (s : EReal) :
    Scalar.select c s (FloatOps.hostNegf (F := Ideal) (φ := .f32) s)
      = Scalar.select c (Ideal.ofBits .f32 0x3F800000#32) (Ideal.ofBits .f32 0xBF800000#32) * s := by
  show Scalar.select c s (-s) = _
  unfold Scalar.select
  split
  · rw [Cert.LibLogistic.one_f32, one_mul]
  · rw [neg_one_f32, neg_one_mul]

theorem tr1 (k : Fin 1024) (j : Fin 512) : idx_main_v9 (ix2 k j) = ix2 j k := funext fun a => Fin.ext (by match a with | ⟨0, _⟩ => rfl | ⟨1, _⟩ => rfl)

/-- Layer 1's scaled weights, transposed: the code at (j, k) times max|W| / 127. -/
theorem scaled1 (x1 : (⟨S512x1024, .f32⟩ : BufTy).Contents (Elt Ideal)) (k : Fin 1024) (j : Fin 512) :
    val_main_v9 (F := Ideal) x1 (ix2 k j) = val_main_v6 (F := Ideal) x1 (ix2 j k) * val_main_v2 (F := Ideal) x1 ix0 := by
  simp only [val_main_v9_apply, tr1, val_main_v8_apply, val_main_v7_apply]
  rw [eq_ix0 (idx_main_v7 (ix2 j k))]
  rfl

theorem tr2 (k : Fin 512) (j : Fin 256) : idx_main_v37 (ix2 k j) = ix2 j k := funext fun a => Fin.ext (by match a with | ⟨0, _⟩ => rfl | ⟨1, _⟩ => rfl)

/-- Layer 2's scaled weights, transposed: sgn W(j, k) times the mean of |W|. -/
theorem scaled2 (x2 : (⟨S256x512, .f32⟩ : BufTy).Contents (Elt Ideal)) (k : Fin 512) (j : Fin 256) :
    val_main_v37 (F := Ideal) x2 (ix2 k j) = sgn (x2 (ix2 j k)) * val_main_v32 (F := Ideal) x2 ix0 := by
  simp only [val_main_v37_apply, tr2, val_main_v36_apply, val_main_v34_apply, val_main_v33_apply, val_main_cst_8_apply,
    val_main_call3_v0_apply, val_main_call3_v1_apply, val_main_v35_apply]
  rw [eq_ix0 (idx_main_call3_v0 (ix2 j k)), eq_ix0 (idx_main_call3_v1 (ix2 j k))]
  exact select_scale _ _

theorem tr3 (k : Fin 256) (j : Fin 128) : idx_main_v65 (ix2 k j) = ix2 j k := funext fun a => Fin.ext (by match a with | ⟨0, _⟩ => rfl | ⟨1, _⟩ => rfl)

/-- Layer 3's scaled weights, transposed: sgn W(j, k) times the mean of |W|. -/
theorem scaled3 (x3 : (⟨S128x256, .f32⟩ : BufTy).Contents (Elt Ideal)) (k : Fin 256) (j : Fin 128) :
    val_main_v65 (F := Ideal) x3 (ix2 k j) = sgn (x3 (ix2 j k)) * val_main_v60 (F := Ideal) x3 ix0 := by
  simp only [val_main_v65_apply, tr3, val_main_v64_apply, val_main_v62_apply, val_main_v61_apply, val_main_cst_15_apply,
    val_main_call5_v0_apply, val_main_call5_v1_apply, val_main_v63_apply]
  rw [eq_ix0 (idx_main_call5_v0 (ix2 j k)), eq_ix0 (idx_main_call5_v1 (ix2 j k))]
  exact select_scale _ _

theorem tr4 (k : Fin 128) (j : Fin 8) : idx_main_v93 (ix2 k j) = ix2 j k := funext fun a => Fin.ext (by match a with | ⟨0, _⟩ => rfl | ⟨1, _⟩ => rfl)

/-- Layer 4's scaled weights, transposed: sgn W(j, k) times the mean of |W|. -/
theorem scaled4 (x4 : (⟨S8x128, .f32⟩ : BufTy).Contents (Elt Ideal)) (k : Fin 128) (j : Fin 8) :
    val_main_v93 (F := Ideal) x4 (ix2 k j) = sgn (x4 (ix2 j k)) * val_main_v88 (F := Ideal) x4 ix0 := by
  simp only [val_main_v93_apply, tr4, val_main_v92_apply, val_main_v90_apply, val_main_v89_apply, val_main_cst_22_apply,
    val_main_call7_v0_apply, val_main_call7_v1_apply, val_main_v91_apply]
  rw [eq_ix0 (idx_main_call7_v0 (ix2 j k)), eq_ix0 (idx_main_call7_v1 (ix2 j k))]
  exact select_scale _ _

end Cert.ScaledWeights

end
-- ==== Proof.LibFloatWords.lean ====
/-
  Float words and a few order operations, as real numbers among the extended reals.

  A float word whose exponent field is neither 0 nor all ones is a NORMAL number ±(2^m + f)·2^(e − bias − m): a nonzero
  real, positive when the sign bit is 0. Hence a real divided by such a word is a real (division by zero and by an
  infinity are the only corners of the extended reals' quotient), and a literal ε > 0 added to a nonnegative real gives
  a positive real, where the reciprocal square root is an ordinary real. Also: the minimum of two reals, |x| of a real,
  a value clipped between two real bounds (whatever the value, even ±∞), and a left fold of max over reals started at a
  real, are reals. Stated for any word and any list, so that a particular program only has to decide its words' fields.
-/
import Idealize.ShloMosaic.PureOps.Ideal
import proofs.«134476_j27230092656811_2_alg».proof.Proof.LibRealEntries

noncomputable section

namespace Cert.LibFloatWords

open Idealize.ShloMosaic Cert.LibRealEntries

/-- A normal float word denotes a nonzero real. -/
theorem ieee_normal (e m : Nat) {w : Nat} (b : BitVec w) (h1 : (b.extractLsb' m e).toNat ≠ 2 ^ e - 1)
    (h0 : (b.extractLsb' m e).toNat ≠ 0) : ∃ r : ℝ, r ≠ 0 ∧ Ideal.ieee e m b = (r : EReal) := by
  unfold Ideal.ieee
  simp only [if_neg h1, if_neg h0]
  refine ⟨_, ?_, rfl⟩
  refine mul_ne_zero (mul_ne_zero ?_ ?_) (zpow_ne_zero _ (by norm_num))
  · split <;> norm_num
  · exact Nat.cast_ne_zero.2 (by positivity)

/-- A normal float word with sign bit 0 denotes a positive real. -/
theorem ieee_normal_pos (e m : Nat) {w : Nat} (b : BitVec w) (h1 : (b.extractLsb' m e).toNat ≠ 2 ^ e - 1)
    (h0 : (b.extractLsb' m e).toNat ≠ 0) (hs : (b.extractLsb' (e + m) 1 == 1#1) = false) :
    ∃ r : ℝ, 0 < r ∧ Ideal.ieee e m b = (r : EReal) := by
  unfold Ideal.ieee
  simp only [if_neg h1, if_neg h0, hs, Bool.false_eq_true, if_false]
  refine ⟨_, ?_, rfl⟩
  positivity

/-- A real divided by a normal f32 word is real. -/
theorem isReal_div_word {x : EReal} (hx : IsReal x) (b : BitVec 32) (h1 : (b.extractLsb' 23 8).toNat ≠ 2 ^ 8 - 1)
    (h0 : (b.extractLsb' 23 8).toNat ≠ 0) : IsReal (Ideal.div x (Ideal.ofBits .f32 b)) := by
  obtain ⟨r, hr, e⟩ := ieee_normal 8 23 b h1 h0
  show IsReal (Ideal.div x (Ideal.ieee 8 23 b))
  rw [e, Ideal.div_coe hr]
  exact hx.mul ⟨_, rfl⟩

theorem isReal_min {x y : EReal} (hx : IsReal x) (hy : IsReal y) : IsReal (min x y) := by
  obtain ⟨a, rfl⟩ := hx; obtain ⟨b, rfl⟩ := hy
  rcases le_total a b with h | h
  · exact ⟨a, min_eq_left (EReal.coe_le_coe_iff.2 h)⟩
  · exact ⟨b, min_eq_right (EReal.coe_le_coe_iff.2 h)⟩

/-- |x| of a real is real. -/
theorem isReal_abs {x : EReal} (hx : IsReal x) : IsReal (FloatOps.hostAbsf (F := Ideal) (φ := .f32) x) := by
  obtain ⟨r, rfl⟩ := hx
  show IsReal (max (r : EReal) (-(r : EReal)))
  exact (IsReal.coe r).max ⟨-r, (EReal.coe_neg r).symm⟩

/-- A value clipped between two reals is real. -/
theorem isReal_clamp {lo hi : EReal} (hlo : IsReal lo) (hhi : IsReal hi) (z : EReal) : IsReal (min hi (max lo z)) := by
  obtain ⟨a, rfl⟩ := hlo; obtain ⟨b, rfl⟩ := hhi
  induction z using EReal.rec with
  | bot => rw [max_eq_left bot_le]; exact isReal_min (IsReal.coe b) (IsReal.coe a)
  | coe r => exact isReal_min (IsReal.coe b) ((IsReal.coe a).max (IsReal.coe r))
  | top => rw [max_eq_right le_top, min_eq_left le_top]; exact IsReal.coe b

/-- rsqrt(v + ε) for a nonnegative real v and the printed ε is real. -/
theorem isReal_rsqrt_add_eps {v : EReal} (hr : IsReal v) (hn : 0 ≤ v) :
    IsReal (FloatOps.hostUnary (F := Ideal) (φ := .f32) .rsqrt (FloatOps.addf (F := Ideal) (φ := .f32) v (FloatOps.ofBits (F := Ideal) .f32 0x3727C5AC#32))) := by
  obtain ⟨a, rfl⟩ := hr
  have ha0 : 0 ≤ a := EReal.coe_nonneg.1 hn
  obtain ⟨ε, hε, e⟩ := ieee_normal_pos 8 23 (0x3727C5AC#32) (by decide) (by decide) (by decide)
  show IsReal (Ideal.rsqrt ((a : EReal) + Ideal.ieee 8 23 0x3727C5AC#32))
  rw [e, ← EReal.coe_add, Ideal.rsqrt_coe, if_neg (not_lt.2 (by linarith)), if_neg (ne_of_gt (by linarith))]
  exact ⟨_, rfl⟩

/-- A fold of max over reals, started at a real, is real. -/
theorem foldl_max_isReal {ι : Type} (f : ι → EReal) (hf : ∀ i, IsReal (f i)) :
    ∀ (l : List ι) (init : EReal), IsReal init → IsReal (l.foldl (fun r i => FloatOps.maximumf (F := Ideal) (φ := .f32) r (f i)) init)
  | [], _, h => h
  | a :: l, init, h => foldl_max_isReal f hf l _ (by show IsReal (max init (f a)); exact h.max (hf a))

end Cert.LibFloatWords

end
-- ==== Proof.RealParams.lean ====
/-
  Every parameter the two arrangements share is a real number.

  The folding law between the two arrangements holds on real entries only, so each parameter has to be shown real:
  • the float-word and order facts are the general ones (a normal word is a nonzero real; a clipped value is real; …);
  • the integer codes are clipped: min(127, max(−128, z)) is real whatever z is;
  • layer 1's scale is a maximum of |W| over a nonempty array, started from −∞, divided by 127: a fold of max over reals
    that has met at least one real is real;
  • the other scales are a sum of |W| plus 0, divided by a count;
  • a reciprocal deviation is rsqrt(v + ε) with v ≥ 0 real and ε > 0: the argument is a positive real, where the
    reciprocal square root is an ordinary real.
-/
import proofs.«134476_j27230092656811_2_alg».proof.Proof.Gen.ReferenceIdeal.Read
import Idealize.ShloMosaic.Lib.ValueIdx
import proofs.«134476_j27230092656811_2_alg».proof.Proof.LibRealEntries
import proofs.«134476_j27230092656811_2_alg».proof.Proof.SignNet
import proofs.«134476_j27230092656811_2_alg».proof.Proof.LibFloatWords

noncomputable section

namespace Cert.RealParams

open Cert.ReferenceIdeal Cert.ReferenceIdeal.Read Idealize.ShloMosaic Idealize.ShloMosaic.ValueIdx Cert.LibRealEntries Cert.SignNet
open Cert.ReferenceIdeal.Facts₀ Cert.LibFloatWords

variable [Cert.ReferenceIdeal.Facts]

/-- The integer codes are real numbers, whatever the weights. -/
theorem isReal_codes (x1 : (⟨S512x1024, .f32⟩ : BufTy).Contents (Elt Ideal)) (i : S512x1024.Idx) : IsReal (val_main_v6 (F := Ideal) x1 i) := by
  rw [val_main_v6_apply, val_main_call1_v2_apply]
  have hhi : IsReal (val_main_call1_v4 (F := Ideal) i) := by
    rw [val_main_call1_v4_apply, val_main_call1_v3_apply]; exact ⟨_, rfl⟩
  have hlo : IsReal (val_main_call1_v1 (F := Ideal) i) := by
    rw [val_main_call1_v1_apply, val_main_call1_v0_apply]; exact ⟨_, rfl⟩
  exact isReal_clamp hlo hhi _

/-- Layer 1's weight scale, max|W| / 127, is a real number when W's entries are. -/
theorem isReal_absmax (x1 : (⟨S512x1024, .f32⟩ : BufTy).Contents (Elt Ideal)) (h : ∀ i, IsReal (x1 i)) : IsReal (val_main_v2 (F := Ideal) x1 ix0) := by
  rw [val_main_v2_apply]
  refine isReal_div_word ?_ (0x42FE0000#32) (by decide) (by decide)
  unfold val_main_v1
  rw [Host.reduce_eq_foldl]
  have hf : ∀ i, IsReal (val_main_v0 (F := Ideal) x1 i) := fun i => by rw [val_main_v0_apply]; exact isReal_abs (h i)
  have key : ∀ l : List S512x1024.Idx, l ≠ [] →
      IsReal (l.foldl (fun r i => FloatOps.maximumf (F := Ideal) (φ := .f32) r (val_main_v0 (F := Ideal) x1 i)) (val_main_cst (F := Ideal) (Shape.Idx.first h_S_))) := by
    intro l hl
    cases l with
    | nil => exact absurd rfl hl
    | cons a l =>
      rw [List.foldl_cons]
      refine foldl_max_isReal _ hf l _ ?_
      have hb : val_main_cst (F := Ideal) (Shape.Idx.first h_S_) = ⊥ := by
        show Ideal.ofBits .f32 0xFF800000#32 = ⊥
        simp [Ideal.ofBits, Ideal.ieee]
      show IsReal (max (val_main_cst (F := Ideal) (Shape.Idx.first h_S_)) (val_main_v0 (F := Ideal) x1 a))
      rw [hb, max_eq_right bot_le]
      exact hf a
  refine key _ (List.ne_nil_of_mem (a := ix2 (0 : Fin 512) (0 : Fin 1024)) ?_)
  rw [List.mem_filter]
  exact ⟨List.mem_map.2 ⟨S512x1024.rowMajor (ix2 0 0), List.mem_finRange _, Equiv.symm_apply_apply _ _⟩, decide_eq_true (eq_ix0 _)⟩

/-- Layer 2's weight scale, the mean of |W|, is a real number when W's entries are. -/
theorem isReal_mean2 (x2 : (⟨S256x512, .f32⟩ : BufTy).Contents (Elt Ideal)) (h : ∀ i, IsReal (x2 i)) : IsReal (val_main_v32 (F := Ideal) x2 ix0) := by
  rw [val_main_v32_apply, val_main_v31_apply]
  refine isReal_div_word (IsReal.add ?_ (IsReal.sum _ _ fun j _ => ?_)) (0x48000000#32) (by decide) (by decide)
  · exact isReal_ieee 8 23 (0x00000000#32) (by decide)
  · rw [val_main_v30_apply]; exact isReal_abs (h j)

/-- Layer 3's weight scale, the mean of |W|, is a real number when W's entries are. -/
theorem isReal_mean3 (x3 : (⟨S128x256, .f32⟩ : BufTy).Contents (Elt Ideal)) (h : ∀ i, IsReal (x3 i)) : IsReal (val_main_v60 (F := Ideal) x3 ix0) := by
  rw [val_main_v60_apply, val_main_v59_apply]
  refine isReal_div_word (IsReal.add ?_ (IsReal.sum _ _ fun j _ => ?_)) (0x47000000#32) (by decide) (by decide)
  · exact isReal_ieee 8 23 (0x00000000#32) (by decide)
  · rw [val_main_v58_apply]; exact isReal_abs (h j)

/-- Layer 4's weight scale, the mean of |W|, is a real number when W's entries are. -/
theorem isReal_mean4 (x4 : (⟨S8x128, .f32⟩ : BufTy).Contents (Elt Ideal)) (h : ∀ i, IsReal (x4 i)) : IsReal (val_main_v88 (F := Ideal) x4 ix0) := by
  rw [val_main_v88_apply, val_main_v87_apply]
  refine isReal_div_word (IsReal.add ?_ (IsReal.sum _ _ fun j _ => ?_)) (0x44800000#32) (by decide) (by decide)
  · exact isReal_ieee 8 23 (0x00000000#32) (by decide)
  · rw [val_main_v86_apply]; exact isReal_abs (h j)

/-- Layer 1's reciprocal deviation rsqrt(v + ε) is a real number when v's entries are nonnegative reals. -/
theorem isReal_rdev1 (x8 : (⟨S512, .f32⟩ : BufTy).Contents (Elt Ideal)) (hr : ∀ i, IsReal (x8 i)) (hn : ∀ i, 0 ≤ x8 i) (i : S512.Idx) :
    IsReal (val_main_v16 (F := Ideal) x8 i) := by
  rw [val_main_v16_apply, val_main_v15_apply, val_main_v14_apply, val_main_cst_2_apply]
  exact isReal_rsqrt_add_eps (hr i) (hn i)

/-- Layer 2's reciprocal deviation rsqrt(v + ε) is a real number when v's entries are nonnegative reals. -/
theorem isReal_rdev2 (x12 : (⟨S256, .f32⟩ : BufTy).Contents (Elt Ideal)) (hr : ∀ i, IsReal (x12 i)) (hn : ∀ i, 0 ≤ x12 i) (i : S256.Idx) :
    IsReal (val_main_v44 (F := Ideal) x12 i) := by
  rw [val_main_v44_apply, val_main_v43_apply, val_main_v42_apply, val_main_cst_9_apply]
  exact isReal_rsqrt_add_eps (hr i) (hn i)

/-- Layer 3's reciprocal deviation rsqrt(v + ε) is a real number when v's entries are nonnegative reals. -/
theorem isReal_rdev3 (x16 : (⟨S128, .f32⟩ : BufTy).Contents (Elt Ideal)) (hr : ∀ i, IsReal (x16 i)) (hn : ∀ i, 0 ≤ x16 i) (i : S128.Idx) :
    IsReal (val_main_v72 (F := Ideal) x16 i) := by
  rw [val_main_v72_apply, val_main_v71_apply, val_main_v70_apply, val_main_cst_16_apply]
  exact isReal_rsqrt_add_eps (hr i) (hn i)

end Cert.RealParams

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«134476_j27230092656811_2_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.Domain.lean ====
/-
  The domain of the inputs, read off the printed precondition.

  The precondition is a conjunction of twenty tests, each a reduction by "and" over a whole array: for each of the
  seventeen inputs, every |entry| below +∞; and for the three variance inputs, every entry at least 0. The conjunction
  is 1 exactly when each test is 1, and a test that is 1 holds at every entry. So under the precondition every input
  entry is a real number, and every variance entry is a nonnegative real: the sum v + ε with ε > 0 then lies strictly
  inside the domain of the reciprocal square root.
-/
import proofs.«134476_j27230092656811_2_alg».proof.Pre_finite_inputs
import proofs.«134476_j27230092656811_2_alg».proof.Proof.LibFinitePre

noncomputable section

namespace Cert.Domain

open Idealize.ShloMosaic Idealize.ShloMosaic.ValueIdx Cert.LibRealEntries Cert.LibFinitePre Cert.Pre_finite_inputs

variable [Cert.Pre_finite_inputs.Facts]

/-- A conjunction of two tests that is 1 has both tests 1. -/
theorem split (a b : IVec S_ 1) (e : andi a b ix0 = 1#1) : a ix0 = 1#1 ∧ b ix0 = 1#1 := IntOp.andi_eq_one.1 e

/-- Under the precondition every input entry is a real number and every variance entry is nonnegative. -/
theorem entries (a0 : FVec Ideal S65536x1024 .f32) (a1 : FVec Ideal S512x1024 .f32) (a2 : FVec Ideal S256x512 .f32) (a3 : FVec Ideal S128x256 .f32) (a4 : FVec Ideal S8x128 .f32) (a5 : FVec Ideal S512 .f32) (a6 : FVec Ideal S512 .f32) (a7 : FVec Ideal S512 .f32) (a8 : FVec Ideal S512 .f32) (a9 : FVec Ideal S256 .f32) (a10 : FVec Ideal S256 .f32) (a11 : FVec Ideal S256 .f32) (a12 : FVec Ideal S256 .f32) (a13 : FVec Ideal S128 .f32) (a14 : FVec Ideal S128 .f32) (a15 : FVec Ideal S128 .f32) (a16 : FVec Ideal S128 .f32)
    (h : fn (F := Ideal) a0 a1 a2 a3 a4 a5 a6 a7 a8 a9 a10 a11 a12 a13 a14 a15 a16 = fun _ => 1#1) :
    ((∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i))) ∧ (∀ i, 0 ≤ a8 i) ∧ (∀ i, 0 ≤ a12 i) ∧ (∀ i, 0 ≤ a16 i) := by
  have h20 := congrFun h ix0
  dsimp only [fn, fn_part1, fn_part2, fn_part3, fn_part4, fn_part5] at h20
  obtain ⟨h19, t20⟩ := split _ _ h20
  obtain ⟨h18, t19⟩ := split _ _ h19
  obtain ⟨h17, t18⟩ := split _ _ h18
  obtain ⟨h16, t17⟩ := split _ _ h17
  obtain ⟨h15, t16⟩ := split _ _ h16
  obtain ⟨h14, t15⟩ := split _ _ h15
  obtain ⟨h13, t14⟩ := split _ _ h14
  obtain ⟨h12, t13⟩ := split _ _ h13
  obtain ⟨h11, t12⟩ := split _ _ h12
  obtain ⟨h10, t11⟩ := split _ _ h11
  obtain ⟨h9, t10⟩ := split _ _ h10
  obtain ⟨h8, t9⟩ := split _ _ h9
  obtain ⟨h7, t8⟩ := split _ _ h8
  obtain ⟨h6, t7⟩ := split _ _ h7
  obtain ⟨h5, t6⟩ := split _ _ h6
  obtain ⟨h4, t5⟩ := split _ _ h5
  obtain ⟨h3, t4⟩ := split _ _ h4
  obtain ⟨h2, t3⟩ := split _ _ h3
  obtain ⟨h1, t2⟩ := split _ _ h2
  exact ⟨⟨all_real a0 _ _ _ h1, all_real a1 _ _ _ t2, all_real a2 _ _ _ t3, all_real a3 _ _ _ t4, all_real a4 _ _ _ t5,
    all_real a5 _ _ _ t6, all_real a6 _ _ _ t7, all_real a7 _ _ _ t8, all_real a8 _ _ _ t9, all_real a9 _ _ _ t10,
    all_real a10 _ _ _ t11, all_real a11 _ _ _ t12, all_real a12 _ _ _ t13, all_real a13 _ _ _ t14, all_real a14 _ _ _ t15,
    all_real a15 _ _ _ t16, all_real a16 _ _ _ t17⟩,
    all_nonneg a8 _ _ _ t18, all_nonneg a12 _ _ _ t19, all_nonneg a16 _ _ _ t20⟩

end Cert.Domain

end
-- ==== Proof.Bridge.lean ====
/-
  The kernel's result is the reference's result.

  After the run the kernel's result array is, at (r, e), the folded network applied to row r of x, with the operands
  the host prepared: integer codes and bare signs for weights, the folded scale and shift rows, the output scale. The
  reference's result at (r, e) is the plain network of the same row: scaled weights, then (y − μ)·ρ·γ + β and a sign,
  layer by layer. Both are built from the same parameters — the same codes, the same scales s, the same ρ = rsqrt(v + ε)
  — so layer by layer the folding law applies: its hypotheses are that every entry is real, which holds for the inputs
  by the precondition, for the codes by the clip, for the scales and ρ by what they are computed from (v ≥ 0 keeps ρ
  real), and for each layer's output because a sign is ±1. The last layer is the scale pulled out of the product.
-/
import proofs.«134476_j27230092656811_2_alg».proof.Proof.WholeArray
import proofs.«134476_j27230092656811_2_alg».proof.Proof.KernelWeights
import proofs.«134476_j27230092656811_2_alg».proof.Proof.KernelRows
import proofs.«134476_j27230092656811_2_alg».proof.Proof.RefLayers
import proofs.«134476_j27230092656811_2_alg».proof.Proof.ScaledWeights
import proofs.«134476_j27230092656811_2_alg».proof.Proof.RealParams
import proofs.«134476_j27230092656811_2_alg».proof.Proof.Domain

set_option maxHeartbeats 4000000

noncomputable section

namespace Cert.Bridge

open Cert.KernelIdeal Cert.KernelIdeal.Gen Idealize.ShloMosaic Idealize.ShloMosaic.TcCoe Idealize.SL.Sem Idealize.ShloMosaic.ValueIdx
  Cert.Args Cert.SignNet Cert.BlockRows Cert.ReferenceIdeal.Read Cert.LibRealEntries

variable [Cert.Pre_finite_inputs.Facts] [Cert.ReferenceIdeal.Facts]
variable (m : (ℓ : Loc nD τ sig) → Buf (Elt Ideal) ℓ)

/-- Under the precondition the reference's result, computed from the kernel's argument arrays, is the kernel's
    whole-array function. -/
theorem reference_eq_result (c : Dev nD)
    (hpre : Cert.Pre_finite_inputs.fn (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) = fun _ => 1#1) :
    (val_main_v94 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) : S65536x8.Idx → EReal) = Cert.WholeArray.result m c := by
  obtain ⟨⟨hx, hW1, hW2, hW3, hW4, hg1, hb1, hm1, hv1, hg2, hb2, hm2, hv2, hg3, hb3, hm3, hv3⟩, hn1, hn2, hn3⟩ :=
    Cert.Domain.entries (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) hpre
  funext i
  obtain ⟨r, e, rfl⟩ : ∃ (r : Fin 65536) (e : Fin 8), i = ix2 r e := ⟨i 0, i 1, eq_ix2 i⟩
  have hK : Cert.WholeArray.result m c (ix2 r e)
      = foldedNet (fun k => arg0 m c (ix2 r k)) (fun k j => val_main_v6 (F := Ideal) (arg1 m c) (ix2 j k)) (fun j => (arg5 m c (ix1 j) * val_main_v16 (F := Ideal) (arg8 m c) (ix1 j)) * val_main_v2 (F := Ideal) (arg1 m c) ix0) (fun j => arg6 m c (ix1 j) - arg7 m c (ix1 j) * (arg5 m c (ix1 j) * val_main_v16 (F := Ideal) (arg8 m c) (ix1 j)))
          (fun k j => sgn (arg2 m c (ix2 j k))) (fun j => (arg9 m c (ix1 j) * val_main_v44 (F := Ideal) (arg12 m c) (ix1 j)) * val_main_v32 (F := Ideal) (arg2 m c) ix0) (fun j => arg10 m c (ix1 j) - arg11 m c (ix1 j) * (arg9 m c (ix1 j) * val_main_v44 (F := Ideal) (arg12 m c) (ix1 j)))
          (fun k j => sgn (arg3 m c (ix2 j k))) (fun j => (arg13 m c (ix1 j) * val_main_v72 (F := Ideal) (arg16 m c) (ix1 j)) * val_main_v60 (F := Ideal) (arg3 m c) ix0) (fun j => arg14 m c (ix1 j) - arg15 m c (ix1 j) * (arg13 m c (ix1 j) * val_main_v72 (F := Ideal) (arg16 m c) (ix1 j)))
          (fun k j => sgn (arg4 m c (ix2 j k))) (fun _ => (val_main_v88 (F := Ideal) (arg4 m c) ix0)) e := by
    unfold Cert.WholeArray.result
    refine Cert.WholeArray.foldedNet_congr ?_ ?_ ?_ ?_ ?_ ?_ ?_ ?_ ?_ ?_ ?_ ?_ ?_
    · intro k; exact congrFun (V_main_arg0 m c) (ix2 r k)
    · intro k j; exact Cert.KernelWeights.codes m c k j
    · intro j; exact Cert.KernelRows.scale1 m c 0 j
    · intro j; exact Cert.KernelRows.shift1 m c 0 j
    · intro k j; exact Cert.KernelWeights.signs2 m c k j
    · intro j; exact Cert.KernelRows.scale2 m c 0 j
    · intro j; exact Cert.KernelRows.shift2 m c 0 j
    · intro k j; exact Cert.KernelWeights.signs3 m c k j
    · intro j; exact Cert.KernelRows.scale3 m c 0 j
    · intro j; exact Cert.KernelRows.shift3 m c 0 j
    · intro k j; exact Cert.KernelWeights.signs4 m c k j
    · intro j; exact Cert.KernelWeights.scale4 m c 0 j
    · rfl
  have E1 : (foldedLayer (fun k => arg0 m c (ix2 r k)) (fun k j => val_main_v6 (F := Ideal) (arg1 m c) (ix2 j k)) (fun j => (arg5 m c (ix1 j) * val_main_v16 (F := Ideal) (arg8 m c) (ix1 j)) * val_main_v2 (F := Ideal) (arg1 m c) ix0) (fun j => arg6 m c (ix1 j) - arg7 m c (ix1 j) * (arg5 m c (ix1 j) * val_main_v16 (F := Ideal) (arg8 m c) (ix1 j)))) = fun j => val_main_v29 (F := Ideal) (arg0 m c) (arg1 m c) (arg5 m c) (arg6 m c) (arg7 m c) (arg8 m c) (ix2 r j) := by
    refine (foldedLayer_eq_plainLayer (fun k => arg0 m c (ix2 r k)) (fun k j => val_main_v6 (F := Ideal) (arg1 m c) (ix2 j k)) (val_main_v2 (F := Ideal) (arg1 m c) ix0) (fun j => arg7 m c (ix1 j)) (fun j => val_main_v16 (F := Ideal) (arg8 m c) (ix1 j)) (fun j => arg5 m c (ix1 j)) (fun j => arg6 m c (ix1 j))
      (fun k => hx _) (fun k j => Cert.RealParams.isReal_codes _ _) (Cert.RealParams.isReal_absmax _ hW1)
      (fun j => hm1 _) (fun j => Cert.RealParams.isReal_rdev1 _ hv1 hn1 _) (fun j => hg1 _) (fun j => hb1 _)).trans ?_
    funext j
    rw [Cert.RefLayers.layer1 (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) r j]
    simp only [Cert.ScaledWeights.scaled1]
  have E2 : (foldedLayer (foldedLayer (fun k => arg0 m c (ix2 r k)) (fun k j => val_main_v6 (F := Ideal) (arg1 m c) (ix2 j k)) (fun j => (arg5 m c (ix1 j) * val_main_v16 (F := Ideal) (arg8 m c) (ix1 j)) * val_main_v2 (F := Ideal) (arg1 m c) ix0) (fun j => arg6 m c (ix1 j) - arg7 m c (ix1 j) * (arg5 m c (ix1 j) * val_main_v16 (F := Ideal) (arg8 m c) (ix1 j)))) (fun k j => sgn (arg2 m c (ix2 j k))) (fun j => (arg9 m c (ix1 j) * val_main_v44 (F := Ideal) (arg12 m c) (ix1 j)) * val_main_v32 (F := Ideal) (arg2 m c) ix0) (fun j => arg10 m c (ix1 j) - arg11 m c (ix1 j) * (arg9 m c (ix1 j) * val_main_v44 (F := Ideal) (arg12 m c) (ix1 j)))) = fun j => val_main_v57 (F := Ideal) (arg0 m c) (arg1 m c) (arg2 m c) (arg5 m c) (arg6 m c) (arg7 m c) (arg8 m c) (arg9 m c) (arg10 m c) (arg11 m c) (arg12 m c) (ix2 r j) := by
    refine (foldedLayer_eq_plainLayer (foldedLayer (fun k => arg0 m c (ix2 r k)) (fun k j => val_main_v6 (F := Ideal) (arg1 m c) (ix2 j k)) (fun j => (arg5 m c (ix1 j) * val_main_v16 (F := Ideal) (arg8 m c) (ix1 j)) * val_main_v2 (F := Ideal) (arg1 m c) ix0) (fun j => arg6 m c (ix1 j) - arg7 m c (ix1 j) * (arg5 m c (ix1 j) * val_main_v16 (F := Ideal) (arg8 m c) (ix1 j)))) (fun k j => sgn (arg2 m c (ix2 j k))) (val_main_v32 (F := Ideal) (arg2 m c) ix0) (fun j => arg11 m c (ix1 j)) (fun j => val_main_v44 (F := Ideal) (arg12 m c) (ix1 j)) (fun j => arg9 m c (ix1 j)) (fun j => arg10 m c (ix1 j))
      (fun k => isReal_foldedLayer _ _ _ _ k) (fun k j => isReal_sgn _) (Cert.RealParams.isReal_mean2 _ hW2)
      (fun j => hm2 _) (fun j => Cert.RealParams.isReal_rdev2 _ hv2 hn2 _) (fun j => hg2 _) (fun j => hb2 _)).trans ?_
    funext j
    rw [Cert.RefLayers.layer2 (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) r j, ← E1]
    simp only [Cert.ScaledWeights.scaled2]
  have E3 : (foldedLayer (foldedLayer (foldedLayer (fun k => arg0 m c (ix2 r k)) (fun k j => val_main_v6 (F := Ideal) (arg1 m c) (ix2 j k)) (fun j => (arg5 m c (ix1 j) * val_main_v16 (F := Ideal) (arg8 m c) (ix1 j)) * val_main_v2 (F := Ideal) (arg1 m c) ix0) (fun j => arg6 m c (ix1 j) - arg7 m c (ix1 j) * (arg5 m c (ix1 j) * val_main_v16 (F := Ideal) (arg8 m c) (ix1 j)))) (fun k j => sgn (arg2 m c (ix2 j k))) (fun j => (arg9 m c (ix1 j) * val_main_v44 (F := Ideal) (arg12 m c) (ix1 j)) * val_main_v32 (F := Ideal) (arg2 m c) ix0) (fun j => arg10 m c (ix1 j) - arg11 m c (ix1 j) * (arg9 m c (ix1 j) * val_main_v44 (F := Ideal) (arg12 m c) (ix1 j)))) (fun k j => sgn (arg3 m c (ix2 j k))) (fun j => (arg13 m c (ix1 j) * val_main_v72 (F := Ideal) (arg16 m c) (ix1 j)) * val_main_v60 (F := Ideal) (arg3 m c) ix0) (fun j => arg14 m c (ix1 j) - arg15 m c (ix1 j) * (arg13 m c (ix1 j) * val_main_v72 (F := Ideal) (arg16 m c) (ix1 j)))) = fun j => val_main_v85 (F := Ideal) (arg0 m c) (arg1 m c) (arg2 m c) (arg3 m c) (arg5 m c) (arg6 m c) (arg7 m c) (arg8 m c) (arg9 m c) (arg10 m c) (arg11 m c) (arg12 m c) (arg13 m c) (arg14 m c) (arg15 m c) (arg16 m c) (ix2 r j) := by
    refine (foldedLayer_eq_plainLayer (foldedLayer (foldedLayer (fun k => arg0 m c (ix2 r k)) (fun k j => val_main_v6 (F := Ideal) (arg1 m c) (ix2 j k)) (fun j => (arg5 m c (ix1 j) * val_main_v16 (F := Ideal) (arg8 m c) (ix1 j)) * val_main_v2 (F := Ideal) (arg1 m c) ix0) (fun j => arg6 m c (ix1 j) - arg7 m c (ix1 j) * (arg5 m c (ix1 j) * val_main_v16 (F := Ideal) (arg8 m c) (ix1 j)))) (fun k j => sgn (arg2 m c (ix2 j k))) (fun j => (arg9 m c (ix1 j) * val_main_v44 (F := Ideal) (arg12 m c) (ix1 j)) * val_main_v32 (F := Ideal) (arg2 m c) ix0) (fun j => arg10 m c (ix1 j) - arg11 m c (ix1 j) * (arg9 m c (ix1 j) * val_main_v44 (F := Ideal) (arg12 m c) (ix1 j)))) (fun k j => sgn (arg3 m c (ix2 j k))) (val_main_v60 (F := Ideal) (arg3 m c) ix0) (fun j => arg15 m c (ix1 j)) (fun j => val_main_v72 (F := Ideal) (arg16 m c) (ix1 j)) (fun j => arg13 m c (ix1 j)) (fun j => arg14 m c (ix1 j))
      (fun k => isReal_foldedLayer _ _ _ _ k) (fun k j => isReal_sgn _) (Cert.RealParams.isReal_mean3 _ hW3)
      (fun j => hm3 _) (fun j => Cert.RealParams.isReal_rdev3 _ hv3 hn3 _) (fun j => hg3 _) (fun j => hb3 _)).trans ?_
    funext j
    rw [Cert.RefLayers.layer3 (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) r j, ← E2]
    simp only [Cert.ScaledWeights.scaled3]
  rw [hK, Cert.RefLayers.last (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) r e]
  unfold foldedNet
  rw [foldedLast_eq_plainLast (foldedLayer (foldedLayer (foldedLayer (fun k => arg0 m c (ix2 r k)) (fun k j => val_main_v6 (F := Ideal) (arg1 m c) (ix2 j k)) (fun j => (arg5 m c (ix1 j) * val_main_v16 (F := Ideal) (arg8 m c) (ix1 j)) * val_main_v2 (F := Ideal) (arg1 m c) ix0) (fun j => arg6 m c (ix1 j) - arg7 m c (ix1 j) * (arg5 m c (ix1 j) * val_main_v16 (F := Ideal) (arg8 m c) (ix1 j)))) (fun k j => sgn (arg2 m c (ix2 j k))) (fun j => (arg9 m c (ix1 j) * val_main_v44 (F := Ideal) (arg12 m c) (ix1 j)) * val_main_v32 (F := Ideal) (arg2 m c) ix0) (fun j => arg10 m c (ix1 j) - arg11 m c (ix1 j) * (arg9 m c (ix1 j) * val_main_v44 (F := Ideal) (arg12 m c) (ix1 j)))) (fun k j => sgn (arg3 m c (ix2 j k))) (fun j => (arg13 m c (ix1 j) * val_main_v72 (F := Ideal) (arg16 m c) (ix1 j)) * val_main_v60 (F := Ideal) (arg3 m c) ix0) (fun j => arg14 m c (ix1 j) - arg15 m c (ix1 j) * (arg13 m c (ix1 j) * val_main_v72 (F := Ideal) (arg16 m c) (ix1 j)))) (fun k j => sgn (arg4 m c (ix2 j k))) (val_main_v88 (F := Ideal) (arg4 m c) ix0)
    (fun k => isReal_foldedLayer _ _ _ _ k) (fun k j => isReal_sgn _) (Cert.RealParams.isReal_mean4 _ hW4), E3]
  simp only [Cert.ScaledWeights.scaled4]

end Cert.Bridge

end
-- ==== Proof.lean ====
/-
  A four-layer binarised perceptron, x[65536, 1024] → out[65536, 8], against its plain jnp reference.

  Each of the first three layers is a product with a weight matrix, an evaluation-mode normalisation (y − μ)·ρ·γ + β
  with ρ = rsqrt(v + ε), and a sign; the last is a bare product. Layer 1's weights are int8-quantised (integer codes
  times the scale max|W|/127), the others binarised (sgn W times the mean of |W|). The reference multiplies by the
  scaled weights and normalises as written. The kernel keeps the bare codes and signs as weights, folds the weight scale
  and the normalisation into one scale row (γ·ρ)·s and one shift row β − μ·(γ·ρ) computed once before its single call,
  and runs the four layers on 32 bands of 2048 rows.

  On real entries the two are the same function: per output unit both pre-activations are y ↦ y·s·ρ·γ + β − μ·ρ·γ of
  y = Σ_k a_k·w_k, so the signs agree, layer after layer, and the last layer is the scale pulled out of a sum. On the
  extended reals that algebra needs every entry real (⊤ + ⊥ = ⊥ breaks distributivity), which the precondition supplies:
  the inputs are finite, and the variances are nonnegative, so v + ε > 0 and ρ is an ordinary real — at v + ε = 0 the
  reference's own ρ is +∞ and the two arrangements part ways (the folded shift β − μ·∞ swallows the product's +∞).

  The frames are the generated ones (the reference's is its generated run with the result dropped); the idealisation
  rewrote nothing, so it is preserved trivially; the value claim sets the kernel's whole-array function (the blockwise
  value leg, closed over the 32 bands) beside the reference's generated run, read stage by stage.
-/
import proofs.«134476_j27230092656811_2_alg».proof.Defs
import proofs.«134476_j27230092656811_2_alg».proof.Proof.Gen.Kernel
import proofs.«134476_j27230092656811_2_alg».proof.Proof.Gen.Kernel.Skeleton
import proofs.«134476_j27230092656811_2_alg».proof.Proof.Gen.Kernel.Launch
import proofs.«134476_j27230092656811_2_alg».proof.Proof.Gen.Kernel.Points
import proofs.«134476_j27230092656811_2_alg».proof.Proof.Gen.Kernel.Frame
import proofs.«134476_j27230092656811_2_alg».proof.Proof.Gen.KernelIdeal
import proofs.«134476_j27230092656811_2_alg».proof.Proof.Gen.KernelIdeal.Skeleton
import proofs.«134476_j27230092656811_2_alg».proof.Proof.Gen.KernelIdeal.Launch
import proofs.«134476_j27230092656811_2_alg».proof.Proof.Gen.KernelIdeal.Points
import proofs.«134476_j27230092656811_2_alg».proof.Proof.Gen.KernelIdeal.Frame
import proofs.«134476_j27230092656811_2_alg».proof.Proof.Gen.ReferenceIdeal
import proofs.«134476_j27230092656811_2_alg».proof.Proof.Gen.Pre_finite_inputs
import proofs.«134476_j27230092656811_2_alg».proof.Proof.Gen.KernelIdeal.Value
import proofs.«134476_j27230092656811_2_alg».proof.Proof.Gen.ReferenceIdeal.Run
import proofs.«134476_j27230092656811_2_alg».proof.Proof.Gen.ReferenceIdeal.Read
import proofs.«134476_j27230092656811_2_alg».proof.Proof.Bridge
import Idealize.ShloMosaic.Adequacy
import Idealize.ShloMosaic.Init

set_option maxHeartbeats 4000000

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealised kernel. -/
theorem frame_kernel_ideal : Cert.frame_KernelIdeal := fun m ρ _ => Cert.KernelIdeal.Gen.frame m ρ

/-- So does the idealised reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments, both idealised programs end with the same result: the folded network of
    each row of x, which is the plain network of that row. -/
theorem algebraic : Cert.algebraic_KernelIdeal_ReferenceIdeal := by
  intro m ρ m' ρ' hpre hagree
  refine ⟨fun c => Cert.WholeArray.result m c, ?_, ?_⟩
  · exact (θ_run Cert.KernelIdeal.defs _ _).mono
      (fun r h c => ⟨(h c).1.trans (Cert.WholeArray.final m c), (h c).2⟩) (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v94_eq]
    obtain ⟨e0, e1, e2, e3, e4, e5, e6, e7, e8, e9, e10, e11, e12, e13, e14, e15, e16⟩ := hagree c
    rw [e0, e1, e2, e3, e4, e5, e6, e7, e8, e9, e10, e11, e12, e13, e14, e15, e16]
    exact Cert.Bridge.reference_eq_result m c (hpre c)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
